-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x64x64 : Shape := ⟨3, ![3, 64, 64]⟩
abbrev S_ : Shape := ⟨0, ![]⟩

class Facts : Prop where
  bcast_S_S3x64x64 : S_.BroadcastsInDim S3x64x64 (![] : Fin 0 → Fin S3x64x64.rank)
  reducesTo_S3x64x64_S_d0_1_2 : S3x64x64.ReducesTo [0, 1, 2] S_
  h_S_ : 0 < S_.numel

variable [Facts]

def fn {F : FTy → Type} [FloatOps F] (main_arg0 : FVec F S3x64x64 .f32) : IVec S_ 1 :=
  let main_v0 : FVec F S3x64x64 .f32 := Host.absf main_arg0
  let main_cst : FVec F S_ .f32 := constant S_ .f32 0x7F800000#32
  let main_v1 : FVec F S3x64x64 .f32 := broadcastInDim S3x64x64 ![] bcast_S_S3x64x64 main_cst
  let main_v2 : IVec S3x64x64 1 := cmpf .olt main_v0 main_v1
  let main_c : IVec S_ 1 := constantI S_ 1 1#1
  let main_v3 : IVec S_ 1 := (fun x v => Host.reduce IntOp.andi x v reducesTo_S3x64x64_S_d0_1_2 h_S_) main_v2 main_c
  main_v3
-- ==== Kernel.lean ====
abbrev S3x64x64 : Shape := ⟨3, ![3, 64, 64]⟩
abbrev S_ : Shape := ⟨0, ![]⟩
abbrev S12288 : Shape := ⟨1, ![12288]⟩
abbrev S1x12288 : Shape := ⟨2, ![1, 12288]⟩
abbrev S12289x12288 : Shape := ⟨2, ![12289, 12288]⟩
abbrev S128x12288 : Shape := ⟨2, ![128, 12288]⟩
abbrev S12289x3x64x64 : Shape := ⟨4, ![12289, 3, 64, 64]⟩

abbrev nBuf : Space → Nat
  | .hbm => 43
  | .vmem => 5
  | .smem => 0
  | _ => 0

abbrev bufTy : (tb : Table) → Fin (tcTables nBuf tb) → BufTy
  | .hbm, ⟨0, _⟩ => ⟨S3x64x64, .f32⟩
  | .hbm, ⟨1, _⟩ => ⟨S_, .f32⟩
  | .hbm, ⟨2, _⟩ => ⟨S3x64x64, .f32⟩
  | .hbm, ⟨3, _⟩ => ⟨S3x64x64, .f32⟩
  | .hbm, ⟨4, _⟩ => ⟨S_, .f32⟩
  | .hbm, ⟨5, _⟩ => ⟨S3x64x64, .f32⟩
  | .hbm, ⟨6, _⟩ => ⟨S3x64x64, .f32⟩
  | .hbm, ⟨7, _⟩ => ⟨S_, .f32⟩
  | .hbm, ⟨8, _⟩ => ⟨S3x64x64, .f32⟩
  | .hbm, ⟨9, _⟩ => ⟨S3x64x64, .f32⟩
  | .hbm, ⟨10, _⟩ => ⟨S_, .f32⟩
  | .hbm, ⟨11, _⟩ => ⟨S3x64x64, .f32⟩
  | .hbm, ⟨12, _⟩ => ⟨S3x64x64, .f32⟩
  | .hbm, ⟨13, _⟩ => ⟨S_, .f32⟩
  | .hbm, ⟨14, _⟩ => ⟨S3x64x64, .f32⟩
  | .hbm, ⟨15, _⟩ => ⟨S3x64x64, .f32⟩
  | .hbm, ⟨16, _⟩ => ⟨S_, .f32⟩
  | .hbm, ⟨17, _⟩ => ⟨S3x64x64, .f32⟩
  | .hbm, ⟨18, _⟩ => ⟨S3x64x64, .f32⟩
  | .hbm, ⟨19, _⟩ => ⟨S3x64x64, .f32⟩
  | .hbm, ⟨20, _⟩ => ⟨S3x64x64, .f32⟩
  | .hbm, ⟨21, _⟩ => ⟨S_, .f32⟩
  | .hbm, ⟨22, _⟩ => ⟨S3x64x64, .f32⟩
  | .hbm, ⟨23, _⟩ => ⟨S3x64x64, .f32⟩
  | .hbm, ⟨24, _⟩ => ⟨S3x64x64, .f32⟩
  | .hbm, ⟨25, _⟩ => ⟨S12288, .f32⟩
  | .hbm, ⟨26, _⟩ => ⟨S12288, .f32⟩
  | .hbm, ⟨27, _⟩ => ⟨S_, .f32⟩
  | .hbm, ⟨28, _⟩ => ⟨S12288, .f32⟩
  | .hbm, ⟨29, _⟩ => ⟨S12288, .i1⟩
  | .hbm, ⟨30, _⟩ => ⟨S12288, .i32⟩
  | .hbm, ⟨31, _⟩ => ⟨S_, .i32⟩
  | .hbm, ⟨32, _⟩ => ⟨S_, .i32⟩
  | .hbm, ⟨33, _⟩ => ⟨S12288, .i32⟩
  | .hbm, ⟨34, _⟩ => ⟨S_, .i32⟩
  | .hbm, ⟨35, _⟩ => ⟨S_, .i32⟩
  | .hbm, ⟨36, _⟩ => ⟨S12288, .i32⟩
  | .hbm, ⟨37, _⟩ => ⟨S12288, .i32⟩
  | .hbm, ⟨38, _⟩ => ⟨S1x12288, .f32⟩
  | .hbm, ⟨39, _⟩ => ⟨S1x12288, .f32⟩
  | .hbm, ⟨40, _⟩ => ⟨S1x12288, .i32⟩
  | .hbm, ⟨41, _⟩ => ⟨S12289x12288, .f32⟩
  | .hbm, ⟨42, _⟩ => ⟨S12289x3x64x64, .f32⟩
  | .local _ .vmem, ⟨0, _⟩ => ⟨S1x12288, .f32⟩
  | .local _ .vmem, ⟨1, _⟩ => ⟨S1x12288, .f32⟩
  | .local _ .vmem, ⟨2, _⟩ => ⟨S1x12288, .i32⟩
  | .local _ .vmem, ⟨3, _⟩ => ⟨S128x12288, .f32⟩
  | .local _ .vmem, ⟨4, _⟩ => ⟨S128x12288, .f32⟩
  | _, _ => ⟨S3x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_call1_cst : Ref sig .tc := ⟨.hbm, 13, rfl⟩
abbrev main_call1_v0 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call2_call0_c : Ref sig .tc := ⟨.hbm, 31, rfl⟩
abbrev main_call2_call0_v0 : Ref sig .tc := ⟨.hbm, 32, rfl⟩
abbrev main_v20 : Ref sig .tc := ⟨.hbm, 33, rfl⟩
abbrev main_c : Ref sig .tc := ⟨.hbm, 34, rfl⟩
abbrev main_call3_v0 : Ref sig .tc := ⟨.hbm, 35, rfl⟩
abbrev main_call3_v1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4

abbrev nD : Nat := 1
abbrev τ : Topo := Topo.v7x

variable {F : FTy → Type} [FloatOps F]

abbrev grid0 : Pipeline.Grid := ⟨1, ![97], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x12288 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x12288 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S3x64x64 : S_.BroadcastsInDim S3x64x64 (![] : Fin 0 → Fin S3x64x64.rank)
  shapeCasts_S3x64x64_S12288 : S3x64x64.ShapeCasts S12288
  bcast_S_S12288 : S_.BroadcastsInDim S12288 (![] : Fin 0 → Fin S12288.rank)
  natLt_1_32 : 1 < 32
  bcast_S_S_ : S_.BroadcastsInDim S_ (![] : Fin 0 → Fin S_.rank)
  reduceWindows_S12288_S12288_w12288s1p12287_0 : S12288.ReduceWindows (![12288] : Fin 1 → Nat) ![1] ![12287] ![0] S12288
  h_S_ : 0 < S_.numel
  shapeCasts_S12288_S1x12288 : S12288.ShapeCasts S1x12288
  inb_S1x12288_S1x12288_0_0 : ∀ a, (![0, 0] : Fin 2 → Nat) a + S1x12288.size a ≤ S1x12288.size a
  h_S1x12288 : 0 < S1x12288.numel
  shapeCasts_S1x12288_S1x12288 : S1x12288.ShapeCasts S1x12288
  iota_S128x12288_d0_w32 : S128x12288.Iotas .tc 32 [0]
  broadcasts_S1x12288_S128x12288 : S1x12288.Broadcasts S128x12288
  inb_S128x12288_S128x12288_0_0 : ∀ a, (![0, 0] : Fin 2 → Nat) a + S128x12288.size a ≤ S128x12288.size a
  h_S128x12288 : 0 < S128x12288.numel
  inb_S128x12288_S1x12288_0_0 : ∀ a, (![0, 0] : Fin 2 → Nat) a + S1x12288.size a ≤ S128x12288.size a
  shapeCasts_S12289x12288_S12289x3x64x64 : S12289x12288.ShapeCasts S12289x3x64x64
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x12288.size a ≤ S1x12288.size a
  hwx0_0 : ∀ i : grid0.Coords, EltTy.bits .f32 = 32 ∨ (Rect.block (s := S1x12288) S1x12288.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x12288.size a ≤ S1x12288.size a
  hwx0_1 : ∀ i : grid0.Coords, EltTy.bits .f32 = 32 ∨ (Rect.block (s := S1x12288) S1x12288.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x12288.size a ≤ S1x12288.size a
  hwx0_2 : ∀ i : grid0.Coords, EltTy.bits .i32 = 32 ∨ (Rect.block (s := S1x12288) S1x12288.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S128x12288.size a < S12289x12288.size a
  hwx0_3 : ∀ i : grid0.Coords, EltTy.bits .f32 = 32 ∨ (Rect.unit (s := S12289x12288) (fun a => cc0_transform_3 i a * S128x12288.size a) (fun a => (Pipeline.Clip.of (cc0_transform_3 i a) (S128x12288.size a) (S12289x12288.size a)).extent (S128x12288.size a)) fun a => Pipeline.Clip.inb (Pipeline.Clip.ok_of (hstart0_3 i a))).WholeWords (EltTy.packing .f32)
  hwxs0_3 : ∀ i : grid0.Coords, EltTy.bits .f32 = 32 ∨ (Rect.unit (s := S128x12288) (fun _ => 0) (fun a => (Pipeline.Clip.of (cc0_transform_3 i a) (S128x12288.size a) (S12289x12288.size a)).extent (S128x12288.size a)) fun a => (Nat.zero_add _).trans_le (Pipeline.Clip.extent_le (Pipeline.Clip.ok_of (hstart0_3 i a)))).WholeWords (EltTy.packing .f32)

variable [Facts₀]

abbrev win0_0 : Pipeline.Window sig grid0 :=
  Pipeline.Window.ofSpec (Memref.whole main_v22) S1x12288.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v23) S1x12288.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x12288.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v25) S128x12288.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S3x64x64 : Shape := ⟨3, ![3, 64, 64]⟩
abbrev S_ : Shape := ⟨0, ![]⟩
abbrev S12288 : Shape := ⟨1, ![12288]⟩
abbrev S12289x12288 : Shape := ⟨2, ![12289, 12288]⟩
abbrev S1 : Shape := ⟨1, ![1]⟩
abbrev S12288x1 : Shape := ⟨2, ![12288, 1]⟩
abbrev S12288x2 : Shape := ⟨2, ![12288, 2]⟩
abbrev S12289x3x64x64 : Shape := ⟨4, ![12289, 3, 64, 64]⟩

abbrev nBuf : Space → Nat
  | .hbm => 64
  | .vmem => 0
  | .smem => 0
  | _ => 0

abbrev bufTy : (tb : Table) → Fin (tcTables nBuf tb) → BufTy
  | .hbm, ⟨0, _⟩ => ⟨S3x64x64, .f32⟩
  | .hbm, ⟨1, _⟩ => ⟨S_, .f32⟩
  | .hbm, ⟨2, _⟩ => ⟨S3x64x64, .f32⟩
  | .hbm, ⟨3, _⟩ => ⟨S3x64x64, .f32⟩
  | .hbm, ⟨4, _⟩ => ⟨S_, .f32⟩
  | .hbm, ⟨5, _⟩ => ⟨S3x64x64, .f32⟩
  | .hbm, ⟨6, _⟩ => ⟨S3x64x64, .f32⟩
  | .hbm, ⟨7, _⟩ => ⟨S_, .f32⟩
  | .hbm, ⟨8, _⟩ => ⟨S3x64x64, .f32⟩
  | .hbm, ⟨9, _⟩ => ⟨S3x64x64, .f32⟩
  | .hbm, ⟨10, _⟩ => ⟨S_, .f32⟩
  | .hbm, ⟨11, _⟩ => ⟨S3x64x64, .f32⟩
  | .hbm, ⟨12, _⟩ => ⟨S3x64x64, .f32⟩
  | .hbm, ⟨13, _⟩ => ⟨S_, .f32⟩
  | .hbm, ⟨14, _⟩ => ⟨S3x64x64, .f32⟩
  | .hbm, ⟨15, _⟩ => ⟨S3x64x64, .f32⟩
  | .hbm, ⟨16, _⟩ => ⟨S_, .f32⟩
  | .hbm, ⟨17, _⟩ => ⟨S3x64x64, .f32⟩
  | .hbm, ⟨18, _⟩ => ⟨S3x64x64, .f32⟩
  | .hbm, ⟨19, _⟩ => ⟨S3x64x64, .f32⟩
  | .hbm, ⟨20, _⟩ => ⟨S3x64x64, .f32⟩
  | .hbm, ⟨21, _⟩ => ⟨S_, .f32⟩
  | .hbm, ⟨22, _⟩ => ⟨S3x64x64, .f32⟩
  | .hbm, ⟨23, _⟩ => ⟨S3x64x64, .f32⟩
  | .hbm, ⟨24, _⟩ => ⟨S3x64x64, .f32⟩
  | .hbm, ⟨25, _⟩ => ⟨S_, .f32⟩
  | .hbm, ⟨26, _⟩ => ⟨S3x64x64, .f32⟩
  | .hbm, ⟨27, _⟩ => ⟨S3x64x64, .i1⟩
  | .hbm, ⟨28, _⟩ => ⟨S12288, .i1⟩
  | .hbm, ⟨29, _⟩ => ⟨S12288, .i32⟩
  | .hbm, ⟨30, _⟩ => ⟨S_, .i32⟩
  | .hbm, ⟨31, _⟩ => ⟨S_, .i32⟩
  | .hbm, ⟨32, _⟩ => ⟨S12288, .i32⟩
  | .hbm, ⟨33, _⟩ => ⟨S_, .i32⟩
  | .hbm, ⟨34, _⟩ => ⟨S_, .i32⟩
  | .hbm, ⟨35, _⟩ => ⟨S12288, .i32⟩
  | .hbm, ⟨36, _⟩ => ⟨S12288, .i32⟩
  | .hbm, ⟨37, _⟩ => ⟨S_, .f32⟩
  | .hbm, ⟨38, _⟩ => ⟨S12289x12288, .f32⟩
  | .hbm, ⟨39, _⟩ => ⟨S12288, .f32⟩
  | .hbm, ⟨40, _⟩ => ⟨S_, .i32⟩
  | .hbm, ⟨41, _⟩ => ⟨S1, .i32⟩
  | .hbm, ⟨42, _⟩ => ⟨S12289x12288, .f32⟩
  | .hbm, ⟨43, _⟩ => ⟨S12288, .i32⟩
  | .hbm, ⟨44, _⟩ => ⟨S12288, .f32⟩
  | .hbm, ⟨45, _⟩ => ⟨S_, .i32⟩
  | .hbm, ⟨46, _⟩ => ⟨S12288, .i32⟩
  | .hbm, ⟨47, _⟩ => ⟨S12288, .i1⟩
  | .hbm, ⟨48, _⟩ => ⟨S_, .i32⟩
  | .hbm, ⟨49, _⟩ => ⟨S12288, .i32⟩
  | .hbm, ⟨50, _⟩ => ⟨S12288, .i32⟩
  | .hbm, ⟨51, _⟩ => ⟨S12288, .i32⟩
  | .hbm, ⟨52, _⟩ => ⟨S_, .i32⟩
  | .hbm, ⟨53, _⟩ => ⟨S12288, .i32⟩
  | .hbm, ⟨54, _⟩ => ⟨S12288, .i1⟩
  | .hbm, ⟨55, _⟩ => ⟨S_, .i32⟩
  | .hbm, ⟨56, _⟩ => ⟨S12288, .i32⟩
  | .hbm, ⟨57, _⟩ => ⟨S12288, .i32⟩
  | .hbm, ⟨58, _⟩ => ⟨S12288, .i32⟩
  | .hbm, ⟨59, _⟩ => ⟨S12288x1, .i32⟩
  | .hbm, ⟨60, _⟩ => ⟨S12288x1, .i32⟩
  | .hbm, ⟨61, _⟩ => ⟨S12288x2, .i32⟩
  | .hbm, ⟨62, _⟩ => ⟨S12289x12288, .f32⟩
  | .hbm, ⟨63, _⟩ => ⟨S12289x3x64x64, .f32⟩
  | _, _ => ⟨S3x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_call1_cst : Ref sig .tc := ⟨.hbm, 13, rfl⟩
abbrev main_call1_v0 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call2_call0_c : Ref sig .tc := ⟨.hbm, 30, rfl⟩
abbrev main_call2_call0_v0 : Ref sig .tc := ⟨.hbm, 31, rfl⟩
abbrev main_v19 : Ref sig .tc := ⟨.hbm, 32, rfl⟩
abbrev main_c : Ref sig .tc := ⟨.hbm, 33, rfl⟩
abbrev main_call3_v0 : Ref sig .tc := ⟨.hbm, 34, rfl⟩
abbrev main_call3_v1 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_c_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_7 : Ref sig .tc := ⟨.hbm, 45, rfl⟩
abbrev main_v27 : Ref sig .tc := ⟨.hbm, 46, rfl⟩
abbrev main_v28 : Ref sig .tc := ⟨.hbm, 47, rfl⟩
abbrev main_c_8 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_9 : Ref sig .tc := ⟨.hbm, 52, rfl⟩
abbrev main_v32 : Ref sig .tc := ⟨.hbm, 53, rfl⟩
abbrev main_v33 : Ref sig .tc := ⟨.hbm, 54, rfl⟩
abbrev main_c_10 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩

abbrev nD : Nat := 1
abbrev τ : Topo := Topo.v7x

variable {F : FTy → Type} [FloatOps F]

class Facts₀ : Prop where
  bcast_S_S3x64x64 : S_.BroadcastsInDim S3x64x64 (![] : Fin 0 → Fin S3x64x64.rank)
  shapeCasts_S3x64x64_S12288 : S3x64x64.ShapeCasts S12288
  natLt_1_32 : 1 < 32
  bcast_S_S_ : S_.BroadcastsInDim S_ (![] : Fin 0 → Fin S_.rank)
  reduceWindows_S12288_S12288_w12288s1p12287_0 : S12288.ReduceWindows (![12288] : Fin 1 → Nat) ![1] ![12287] ![0] S12288
  h_S_ : 0 < S_.numel
  bcast_S_S12288 : S_.BroadcastsInDim S12288 (![] : Fin 0 → Fin S12288.rank)
  bcast_S_S12289x12288 : S_.BroadcastsInDim S12289x12288 (![] : Fin 0 → Fin S12289x12288.rank)
  bcast_S_S1 : S_.BroadcastsInDim S1 (![] : Fin 0 → Fin S1.rank)
  bcast_S12288_S12288x1_0 : S12288.BroadcastsInDim S12288x1 (![0] : Fin 1 → Fin S12288x1.rank)
  concatenates_S12288x1_S12288x1_S12288x2_d1 : Shape.Concatenates [S12288x1, S12288x1] S12288x2 1
  shapeCasts_S12289x12288_S12289x3x64x64 : S12289x12288.ShapeCasts S12289x3x64x64
  scatter_S12289x12288_S1_S12288_0_0_0_0_wf : ScatterDims.WF S12289x12288 S1 S12288 [0] [0] [0] 0
  scatter_S12289x12288_S12288x2_S12288_n_01_01_1_wf : ScatterDims.WF S12289x12288 S12288x2 S12288 [] [0, 1] [0, 1] 1

variable [Facts₀]

def scatter_S12289x12288_S1_S12288_0_0_0_0 : ScatterDims S12289x12288 S1 S12288 where
  updateWindowDims := [0]
  insertedWindowDims := [0]
  scatterDimsToOperandDims := [0]
  indexVectorDim := 0
  wf := scatter_S12289x12288_S1_S12288_0_0_0_0_wf
def scatter_S12289x12288_S12288x2_S12288_n_01_01_1 : ScatterDims S12289x12288 S12288x2 S12288 where
  updateWindowDims := []
  insertedWindowDims := [0, 1]
  scatterDimsToOperandDims := [0, 1]
  indexVectorDim := 1
  wf := scatter_S12289x12288_S12288x2_S12288_n_01_01_1_wf

class Facts : Prop extends Facts₀ where

variable [Facts]
-- ==== Proof.ZonoSpec.lean ====
/-
  The mathematics of the zonotope-matrix certificate, stated over literal shapes and free of either program.

  With N = 12288 pixels, the result is the matrix Z of N + 1 rows and N columns whose row 0 is the centre vector,
  and whose column k holds the error of pixel k in the one row `rows k` (when that row number is in 1 … N) and zero
  elsewhere: `spec`.  The reference builds Z by two scatters into a zero matrix (`scatterForm`): first the centre into
  row 0, then, pixel by pixel, the error at (rows k, k), an index with a row number past the matrix being dropped.
  The row numbers are the running count of the selected pixels (`rowsOf`): a selected pixel gets the number of
  selected pixels up to and including itself, an unselected one the out-of-range number N + 1.
-/
import Idealize.ShloMosaic.PureOps
import Idealize.ShloMosaic.PureOps.Ideal
import Idealize.ShloMosaic.Lib.ValueIdx

noncomputable section

namespace Zono

open Idealize.ShloMosaic Idealize.ShloMosaic.ValueIdx

abbrev S_ : Shape := ⟨0, ![]⟩
abbrev SN : Shape := ⟨1, ![12288]⟩
abbrev SZ : Shape := ⟨2, ![12289, 12288]⟩
abbrev SI1 : Shape := ⟨1, ![1]⟩
abbrev SNx1 : Shape := ⟨2, ![12288, 1]⟩
abbrev SNx2 : Shape := ⟨2, ![12288, 2]⟩

/-- The matrix Z: row 0 is the centre; below it column `k` holds the error of pixel `k` in row `rows k` and zero elsewhere. -/
def spec (ce er : FVec Ideal SN .f32) (rw : IVec SN 32) : FVec Ideal SZ .f32 := fun j =>
  if (j 0).val = 0 then ce (ix1 (j 1))
  else if (rw (ix1 (j 1))).toNat = (j 0).val then er (ix1 (j 1))
  else Ideal.ofBits .f32 0x00000000#32

/-- The scatter that writes one whole row: the one start index names the row, the update is the row. -/
def dRow (h : ScatterDims.WF SZ SI1 SN [0] [0] [0] 0) : ScatterDims SZ SI1 SN where
  updateWindowDims := [0]
  insertedWindowDims := [0]
  scatterDimsToOperandDims := [0]
  indexVectorDim := 0
  wf := h

/-- The scatter that writes single elements: update `k` goes to the (row, column) pair in row `k` of the index table. -/
def dPt (h : ScatterDims.WF SZ SNx2 SN [] [0, 1] [0, 1] 1) : ScatterDims SZ SNx2 SN where
  updateWindowDims := []
  insertedWindowDims := [0, 1]
  scatterDimsToOperandDims := [0, 1]
  indexVectorDim := 1
  wf := h

/-- A possibly negative index counted from the end of an axis of extent `n`: `v + n` where `v` is negative. -/
def wrapIdx (hb : S_.BroadcastsInDim SN (![] : Fin 0 → Fin SN.rank)) (n : BitVec 32) (v : IVec SN 32) : IVec SN 32 :=
  select (cmpi .slt v (broadcastInDim SN ![] hb (constantI S_ 32 0#32))) (addi v (broadcastInDim SN ![] hb (constantI S_ 32 n))) v

/-- The index table of the element scatter: row `k` is (rows k, k), each wrapped from the end where negative. -/
def idxTable (hb : S_.BroadcastsInDim SN (![] : Fin 0 → Fin SN.rank))
    (hbc : SN.BroadcastsInDim SNx1 (![0] : Fin 1 → Fin SNx1.rank))
    (hcat : Shape.Concatenates [SNx1, SNx1] SNx2 1) (rw : IVec SN 32) : IVec SNx2 32 :=
  concatenate SNx2 1 [⟨SNx1, broadcastInDim SNx1 ![0] hbc (wrapIdx hb 12289#32 rw)⟩,
    ⟨SNx1, broadcastInDim SNx1 ![0] hbc (wrapIdx hb 12288#32 (iotaInDim SN 32 0))⟩] hcat

/-- Z as the reference builds it: zeros, the centre scattered into row 0, then the errors scattered element by element. -/
def scatterForm (h1 : ScatterDims.WF SZ SI1 SN [0] [0] [0] 0) (h2 : ScatterDims.WF SZ SNx2 SN [] [0, 1] [0, 1] 1)
    (hbZ : S_.BroadcastsInDim SZ (![] : Fin 0 → Fin SZ.rank)) (hb1 : S_.BroadcastsInDim SI1 (![] : Fin 0 → Fin SI1.rank))
    (hb : S_.BroadcastsInDim SN (![] : Fin 0 → Fin SN.rank))
    (hbc : SN.BroadcastsInDim SNx1 (![0] : Fin 1 → Fin SNx1.rank))
    (hcat : Shape.Concatenates [SNx1, SNx1] SNx2 1)
    (ce er : FVec Ideal SN .f32) (rw : IVec SN 32) : FVec Ideal SZ .f32 :=
  Host.scatter (dPt h2) (fun _ b => b)
    (Host.scatter (dRow h1) (fun _ b => b) (broadcastInDim SZ ![] hbZ (constant (F := Ideal) S_ .f32 0x00000000#32))
      (broadcastInDim SI1 ![] hb1 (constantI S_ 32 0#32)) ce)
    (idxTable hb hbc hcat rw) er

/-- The row numbers: the inclusive running count of the selection mask where the mask is set, N + 1 where it is not. -/
def rowsOf (hlt : 1 < 32) (hbb : S_.BroadcastsInDim S_ (![] : Fin 0 → Fin S_.rank))
    (hrw : SN.ReduceWindows (![12288] : Fin 1 → Nat) ![1] ![12287] ![0] SN) (hS : 0 < S_.numel)
    (hb : S_.BroadcastsInDim SN (![] : Fin 0 → Fin SN.rank)) (cond : IVec SN 1) : IVec SN 32 :=
  select cond
    (Host.reduceWindow IntOp.addi ![12288] ![1] ![12287] ![0] (extui 32 cond hlt)
      (broadcastInDim S_ ![] hbb (constantI S_ 32 0#32)) hrw hS)
    (broadcastInDim SN ![] hb (constantI S_ 32 12289#32))

end Zono

end
-- ==== Proof.ZonoKBlock.lean ====
/-
  What the kernel body leaves in the output window's block at a grid point, read element by element.
-/
import proofs.«127922_j26998164423199_2_alg».proof.Proof.Gen.KernelIdeal.Frame
import proofs.«127922_j26998164423199_2_alg».proof.Proof.ZonoSpec
import Idealize.ShloMosaic.Lib.Pipeline.Value
import Idealize.ShloMosaic.Lib.ValueIdx
import Idealize.ShloMosaic.Lib.ValueLayout

set_option maxRecDepth 16384

noncomputable section

namespace Cert.KernelIdeal.ZonoK

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable {F : FTy → Type} [FloatOps F]

theorem zeros2 : (![0, 0] : Fin 2 → Nat) = fun _ => 0 := funext fun a => by fin_cases a <;> rfl

/-- At a grid point other than the first the body leaves in the output block the one select it stores. -/
theorem block_later (c : Dev nD) (i : grid0.Coords) (arg1 : Memref sig .tc .vmem S1x12288 .f32) (harg1 : arg1.IsWhole) (arg2 : Memref sig .tc .vmem S1x12288 .f32) (harg2 : arg2.IsWhole) (arg3 : Memref sig .tc .vmem S1x12288 .i32) (harg3 : arg3.IsWhole) (arg4 : Memref sig .tc .vmem S128x12288 .f32) (harg4 : arg4.IsWhole) (hc0 : ¬cond0_0 i)
    (x0 : Vec F S1x12288 .f32) (x1 : Vec F S1x12288 .f32) (x2 : Vec F S1x12288 .i32) :
    out0_B_3 c i arg1 harg1 arg2 harg2 arg3 harg3 arg4 harg4 hc0 x0 x1 x2 = k0_pay1 i x2 x1 := by
  unfold out0_B_3
  rw [View.read_writes_eq_canon _ _ _ (cover0_B_3 c i arg1 harg1 arg2 harg2 arg3 harg3 arg4 harg4 hc0 x0 x1 x2)]
  unfold kernelRun0_B
  dsimp only
  rw [View.canon_unit_zero zeros2]
  simp only [View.readAt_eq_ld, harg3.read_unread, harg2.read_unread, View.ld_unit_zero (S := S1x12288) zeros2]

/-- At the first grid point the body stores the select and then the centre row over the block's row 0:
    row 0 of the block is the centre, every other row the select's. -/
theorem block_first (c : Dev nD) (i : grid0.Coords) (arg1 : Memref sig .tc .vmem S1x12288 .f32) (harg1 : arg1.IsWhole) (arg2 : Memref sig .tc .vmem S1x12288 .f32) (harg2 : arg2.IsWhole) (arg3 : Memref sig .tc .vmem S1x12288 .i32) (harg3 : arg3.IsWhole) (arg4 : Memref sig .tc .vmem S128x12288 .f32) (harg4 : arg4.IsWhole) (hc0 : cond0_0 i)
    (x0 : Vec F S1x12288 .f32) (x1 : Vec F S1x12288 .f32) (x2 : Vec F S1x12288 .i32) (a : Fin 128) (b : Fin 12288) :
    out0_A_3 c i arg1 harg1 arg2 harg2 arg3 harg3 arg4 harg4 hc0 x0 x1 x2 (ix2 a b)
      = if a.val = 0 then x0 (ix2 (0 : Fin 1) b) else k0_pay1 i x2 x1 (ix2 a b) := by
  unfold out0_A_3
  rw [View.read_writes_eq_canon _ _ _ (cover0_A_3 c i arg1 harg1 arg2 harg2 arg3 harg3 arg4 harg4 hc0 x0 x1 x2)]
  unfold kernelRun0_A
  dsimp only
  simp only [View.readAt_eq_ld, harg3.read_unread, harg2.read_unread, harg1.read_unread, View.ld_unit_zero (S := S1x12288) zeros2]
  by_cases ha : a.val = 0
  · rw [if_pos ha]
    have e : (ix2 a b : S128x12288.Idx)
        = (Rect.unit (s := S128x12288) ![0, 0] S1x12288.size inb_S128x12288_S1x12288_0_0).emb (ix2 (0 : Fin 1) b) := by
      funext d; apply Fin.ext
      match d with
      | ⟨0, _⟩ => show a.val = 0 + 1 * 0; omega
      | ⟨1, _⟩ => show b.val = 0 + 1 * b.val; omega
    rw [e, View.canon_cons_emb]
    unfold k0_pay2
    rw [shapeCast_self]
  · rw [if_neg ha, View.canon_cons_of_not_mem, View.canon_unit_zero zeros2]
    show (ix2 a b : S128x12288.Idx) ∉ (Rect.unit (s := S128x12288) ![0, 0] S1x12288.size inb_S128x12288_S1x12288_0_0).set
    rw [Rect.mem_set_unit]
    intro h
    have := (h 0).2
    have : a.val < 0 + 1 := this
    omega

/-- The select at an element: the error of pixel `b` where the pixel's row number, less the block's first row,
    is the element's row `a` within the block, and zero elsewhere. -/
theorem select_apply_at (i : grid0.Coords) (x2 : Vec Ideal S1x12288 .i32) (x1 : Vec Ideal S1x12288 .f32) (a : Fin 128) (b : Fin 12288) :
    k0_pay1 (F := Ideal) i x2 x1 (ix2 a b)
      = Scalar.select (IntOp.cmpi .eq (BitVec.ofNat 32 a.val)
          (IntOp.subi (x2 (ix2 (0 : Fin 1) b)) (Scalar.muli (BitVec.ofNat 32 (i 0).val) 128#32)))
        (x1 (ix2 (0 : Fin 1) b)) (Ideal.ofBits .f32 0x00000000#32) := by
  unfold k0_pay1
  simp only [select_apply, cmpi, subi, broadcast, shapeCast_self, broadcastTo_1b_ab_apply]
  rw [iota_single_apply .tc S128x12288 32 (0 : Fin 2) iota_S128x12288_d0_w32 (ix2 a b)]
  rfl

end Cert.KernelIdeal.ZonoK
end
-- ==== Proof.ZonoKArray.lean ====
/-
  The output array after the region: every block the pipeline writes back is the matching block of one
  matrix, and the blocks cover the array.
-/
import proofs.«127922_j26998164423199_2_alg».proof.Proof.Gen.KernelIdeal.Frame
import proofs.«127922_j26998164423199_2_alg».proof.Proof.ZonoSpec
import Idealize.ShloMosaic.Lib.Pipeline.Value
import Idealize.ShloMosaic.Lib.ValueIdx
import Idealize.ShloMosaic.Lib.ValueLayout
import proofs.«127922_j26998164423199_2_alg».proof.Proof.ZonoKBlock
set_option maxRecDepth 16384

noncomputable section

namespace Cert.KernelIdeal.ZonoK

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

/-- The row test the body makes: row `a` of the block that starts at row `128·i` is the row number `w`
    exactly when `w`, read as a natural number, is `128·i + a` (the numbers are far below the word size). -/
theorem row_test {α : Type} (a i0 : Nat) (ha : a < 128) (hi : i0 < 97) (w : BitVec 32) (x y : α) :
    Scalar.select (IntOp.cmpi .eq (BitVec.ofNat 32 a) (IntOp.subi w (Scalar.muli (BitVec.ofNat 32 i0) 128#32))) x y
      = if w.toNat = i0 * 128 + a then x else y := by
  have key : (BitVec.ofNat 32 a = w - BitVec.ofNat 32 i0 * 128#32) ↔ w.toNat = i0 * 128 + a := by
    constructor
    · intro h; bv_omega
    · intro h; bv_omega
  unfold Scalar.select IntOp.cmpi IntOp.subi Scalar.muli IntOp.muli
  by_cases h : w.toNat = i0 * 128 + a
  · rw [if_pos h, if_pos]
    rw [beq_iff_eq.mpr (key.mpr h)]; rfl
  · rw [if_neg h, if_neg]
    have hne : BitVec.ofNat 32 a ≠ w - BitVec.ofNat 32 i0 * 128#32 := fun e => h (key.mp e)
    rw [beq_eq_false_iff_ne.mpr hne]; show ¬ BitVec.ofBool false = 1#1; decide

/-- The matrix the kernel builds, over the three rows the region is handed: row 0 the centre, below it column `k`
    holding the error in the row whose number is `rw k`, zero elsewhere. -/
def kernelMatrix (ce er : S1x12288.Idx → EReal) (rw : S1x12288.Idx → BitVec 32) : S12289x12288.Idx → EReal := fun j =>
  if (j 0).val = 0 then ce (ix2 (0 : Fin 1) (j 1))
  else if (rw (ix2 (0 : Fin 1) (j 1))).toNat = (j 0).val then er (ix2 (0 : Fin 1) (j 1))
  else Ideal.ofBits .f32 0x00000000#32

/-- Where the windows' blocks sit: the three inputs' one block at the origin, the output's block `t` at row `128·t`. -/
theorem block_origin : ∀ t : Fin cfg0.N,
    win0_0.index t 0 = 0 ∧ win0_0.index t 1 = 0 ∧ win0_1.index t 0 = 0 ∧ win0_1.index t 1 = 0
    ∧ win0_2.index t 0 = 0 ∧ win0_2.index t 1 = 0 ∧ win0_3.index t 0 = t.val ∧ win0_3.index t 1 = 0 :=
  (by decide +kernel : ∀ t : Fin grid0.N, _)

/-- The part of output block `t` inside the array: all 128 rows, but one row for the last block; every column. -/
theorem block_extent : ∀ t : Fin cfg0.N,
    win0_3.xsize (grid0.coords t) 0 = (if t.val = 96 then 1 else 128) ∧ win0_3.xsize (grid0.coords t) 1 = 12288 :=
  (by decide +kernel : ∀ t : Fin grid0.N, _)

variable (m : (ℓ : Loc nD τ sig) → Buf (Elt Ideal) ℓ)

/-- The grid is one axis: point `t` has coordinate `t`. -/
theorem point_coord : ∀ t : Fin cfg0.N, (grid0.coords t 0).val = t.val :=
  (by decide +kernel : ∀ t : Fin grid0.N, _)

/-- A coordinate of an index into the moved part of a block is below that part's extent. -/
theorem xidx_lt {sig : RefSig} {G : Pipeline.Grid} (w : Pipeline.Window sig G) (i : G.Coords) (y : (w.xblock i).Idx) (a : Fin w.shape.rank) :
    (y a).val < w.xsize i a := (y a).isLt

/-- Each input window's one block is its whole row array. -/
theorem centre_block (c : Dev nD) (t : Fin cfg0.N) (y : S1x12288.Idx) : iblk m c 0 t y = V m c main_v22 y := by
  unfold iblk
  show V m c main_v22 (((cfg0.win 0).blk t).view.emb y) = V m c main_v22 y
  refine congrArg _ (funext fun a => Fin.ext ?_)
  have hb := block_origin t
  match a with
  | ⟨0, _⟩ =>
    show win0_0.index t 0 * 1 + 1 * (y 0).val = (y 0).val
    rw [hb.1]; omega
  | ⟨1, _⟩ =>
    show win0_0.index t 1 * 12288 + 1 * (y 1).val = (y 1).val
    rw [hb.2.1]; omega

theorem error_block (c : Dev nD) (t : Fin cfg0.N) (y : S1x12288.Idx) : iblk m c 1 t y = V m c main_v23 y := by
  unfold iblk
  show V m c main_v23 (((cfg0.win 1).blk t).view.emb y) = V m c main_v23 y
  refine congrArg _ (funext fun a => Fin.ext ?_)
  have hb := block_origin t
  match a with
  | ⟨0, _⟩ =>
    show win0_1.index t 0 * 1 + 1 * (y 0).val = (y 0).val
    rw [hb.2.2.1]; omega
  | ⟨1, _⟩ =>
    show win0_1.index t 1 * 12288 + 1 * (y 1).val = (y 1).val
    rw [hb.2.2.2.1]; omega

theorem rows_block (c : Dev nD) (t : Fin cfg0.N) (y : S1x12288.Idx) : iblk m c 2 t y = V m c main_v24 y := by
  unfold iblk
  show V m c main_v24 (((cfg0.win 2).blk t).view.emb y) = V m c main_v24 y
  refine congrArg _ (funext fun a => Fin.ext ?_)
  have hb := block_origin t
  match a with
  | ⟨0, _⟩ =>
    show win0_2.index t 0 * 1 + 1 * (y 0).val = (y 0).val
    rw [hb.2.2.2.2.1]; omega
  | ⟨1, _⟩ =>
    show win0_2.index t 1 * 12288 + 1 * (y 1).val = (y 1).val
    rw [hb.2.2.2.2.2.1]; omega

/-- What the body leaves at point `t` in the block's row `a` is the matrix's row `r = 128·t + a`: the select's row
    test is `rows k = r`; the centre lands on the block's row 0 at the first point only, which is the matrix's row 0,
    and no later block contains row 0. -/
theorem point_block (c : Dev nD) (t : Fin cfg0.N) (a : Fin 128) (b : Fin 12288) (r : Fin 12289) (hr : r.val = t.val * 128 + a.val) :
    outsAt0 m c t.val t.isLt (ix2 a b) = kernelMatrix (V m c main_v22) (V m c main_v23) (V m c main_v24) (ix2 r b) := by
  have hN : t.val < 97 := lt_of_lt_of_eq t.isLt (show cfg0.N = 97 from N_0)
  have hsel : k0_pay1 (F := Ideal) (grid0.coords t) (iblk m c 2 t) (iblk m c 1 t) (ix2 a b)
      = if (V m c main_v24 (ix2 (0 : Fin 1) b)).toNat = r.val then V m c main_v23 (ix2 (0 : Fin 1) b) else Ideal.ofBits .f32 0x00000000#32 := by
    rw [select_apply_at, point_coord t, row_test _ _ a.isLt hN, rows_block, error_block, hr]
  unfold kernelMatrix
  show _ = if r.val = 0 then V m c main_v22 (ix2 (0 : Fin 1) b) else if (V m c main_v24 (ix2 (0 : Fin 1) b)).toNat = r.val then V m c main_v23 (ix2 (0 : Fin 1) b) else Ideal.ofBits .f32 0x00000000#32
  by_cases h0 : t.val % 97 = 0
  · have ht : t.val = 0 := by omega
    rw [outsAt0_A m c t h0, block_first, centre_block, hsel]
    have hra : r.val = a.val := by omega
    rw [hra]
  · have ht : r.val ≠ 0 := by omega
    rw [outsAt0_B m c t h0, block_later, hsel, if_neg ht]

/-- What point `t` writes back is block `t` of the matrix (the part of it inside the array). -/
theorem flushed_eq (c : Dev nD) (t : Fin cfg0.N) :
    (dats m 0 c).flushed 3 t = ((cfg0.win 3).blk t).view.read (Elt Ideal)
      (kernelMatrix (V m c main_v22) (V m c main_v23) (V m c main_v24)) := by
  show (cfg0.win 3).cut (grid0.coords t) ((dats m 0 c).after 3 t) = _
  rw [after0_3]
  funext y
  have hN : t.val < 97 := lt_of_lt_of_eq t.isLt (show cfg0.N = 97 from N_0)
  have hx := block_extent t
  have hb := block_origin t
  have hy0 := xidx_lt win0_3 (grid0.coords t) y 0
  have hy1 := xidx_lt win0_3 (grid0.coords t) y 1
  rw [hx.1] at hy0; rw [hx.2] at hy1
  have ha : (y 0).val < 128 := by split at hy0 <;> omega
  have hrow : t.val * 128 + (y 0).val < 12289 := by split at hy0 <;> omega
  have e1 : (cfg0.win 3).xinj (grid0.coords t) y = (ix2 (⟨(y 0).val, ha⟩ : Fin 128) (⟨(y 1).val, hy1⟩ : Fin 12288) : S128x12288.Idx) :=
    funext fun d => match d with | ⟨0, _⟩ => rfl | ⟨1, _⟩ => rfl
  have e2 : ((cfg0.win 3).blk t).view.emb y
      = (ix2 (⟨t.val * 128 + (y 0).val, hrow⟩ : Fin 12289) (⟨(y 1).val, hy1⟩ : Fin 12288) : S12289x12288.Idx) := by
    funext d; apply Fin.ext
    match d with
    | ⟨0, _⟩ => show win0_3.index t 0 * 128 + 1 * (y 0).val = t.val * 128 + (y 0).val; rw [hb.2.2.2.2.2.2.1]; omega
    | ⟨1, _⟩ => show win0_3.index t 1 * 12288 + 1 * (y 1).val = (y 1).val; rw [hb.2.2.2.2.2.2.2]; omega
  show outsAt0 m c t.val t.isLt ((cfg0.win 3).xinj (grid0.coords t) y) = kernelMatrix _ _ _ (((cfg0.win 3).blk t).view.emb y)
  rw [e1, e2]
  exact point_block m c t _ _ _ rfl

/-- An element of the array is in block `t` exactly when its row is among the block's rows inside the array. -/
theorem mem_block (t : Fin cfg0.N) (i : S12289x12288.Idx) :
    i ∈ ((cfg0.win 3).blk t).view.set ↔ t.val * 128 ≤ (i 0).val ∧ (i 0).val < t.val * 128 + (if t.val = 96 then 1 else 128) := by
  show i ∈ ((View.whole main_v25).slice (win0_3.rect t)).set ↔ _
  rw [View.set_slice_whole, Rect.mem_set_unit]
  have hx := block_extent t
  have hb := block_origin t
  have h1 : (i 1).val < 12288 := (i 1).isLt
  constructor
  · intro h
    have h0 := h 0
    have e0 : win0_3.index t 0 * 128 ≤ (i 0).val ∧ (i 0).val < win0_3.index t 0 * 128 + win0_3.xsize (grid0.coords t) 0 := h0
    rw [hb.2.2.2.2.2.2.1, hx.1] at e0
    exact e0
  · intro h a
    match a with
    | ⟨0, _⟩ =>
      show win0_3.index t 0 * 128 ≤ (i 0).val ∧ (i 0).val < win0_3.index t 0 * 128 + win0_3.xsize (grid0.coords t) 0
      rw [hb.2.2.2.2.2.2.1, hx.1]; exact h
    | ⟨1, _⟩ =>
      show win0_3.index t 1 * 12288 ≤ (i 1).val ∧ (i 1).val < win0_3.index t 1 * 12288 + win0_3.xsize (grid0.coords t) 1
      rw [hb.2.2.2.2.2.2.2, hx.2]
      generalize (i 1).val = q at h1 ⊢
      clear h hb hx
      omega

/-- The blocks cover the array: row `r` is in block `r / 128` (the last block holds the one row 12288). -/
theorem blocks_cover (i : S12289x12288.Idx) :
    ∃ t : Fin cfg0.N, (cfg0.win 3).flush t = true ∧ i ∈ ((cfg0.win 3).blk t).view.set := by
  have h0 : (i 0).val < 12289 := (i 0).isLt
  have hN : cfg0.N = 97 := N_0
  have hq : (i 0).val / 128 < 97 := by
    generalize (i 0).val = q at h0 ⊢
    omega
  refine ⟨⟨(i 0).val / 128, by rw [hN]; exact hq⟩, flush0_3 _, ?_⟩
  rw [mem_block]
  show (i 0).val / 128 * 128 ≤ (i 0).val ∧ (i 0).val < (i 0).val / 128 * 128 + (if (i 0).val / 128 = 96 then 1 else 128)
  generalize (i 0).val = q at h0 ⊢
  split <;> omega

/-- After the region the output array holds the matrix. -/
theorem array_final (c : Dev nD) :
    (dats m 0 c).arrAt 3 cfg0.N = kernelMatrix (V m c main_v22) (V m c main_v23) (V m c main_v24) :=
  (dats m 0 c).arrAt_eq_of_cover 3 (kernelMatrix (V m c main_v22) (V m c main_v23) (V m c main_v24))
    (fun t _ => flushed_eq m c t) blocks_cover

end Cert.KernelIdeal.ZonoK
end
-- ==== Proof.ZonoHost.lean ====
/-
  The pixel arithmetic both programs run before they build the matrix, as functions of the image `x`:
  the two clip corrections lo = max(ε − x, 0)/2 and hi = max(x − (1 − ε), 0)/2 (ε and 1 − ε the two float literals),
  the centre x + lo − hi and the error ε − lo − hi, each then flattened to a vector of N = 12288 pixels;
  the selection mask "error ≥ 0", which the kernel takes of the flattened error and the reference flattens after
  taking it (the same mask: flattening only renames the index); and the row numbers from the mask (`rowsOf`).
-/
import proofs.«127922_j26998164423199_2_alg».proof.Proof.ZonoSpec
import Idealize.ShloMosaic.Lib.ValueLayout

noncomputable section

namespace Zono

open Idealize.ShloMosaic Idealize.ShloMosaic.ValueIdx

abbrev S3 : Shape := ⟨3, ![3, 64, 64]⟩
abbrev S1N : Shape := ⟨2, ![1, 12288]⟩
abbrev S4 : Shape := ⟨4, ![12289, 3, 64, 64]⟩

section
variable (hb3 : S_.BroadcastsInDim S3 (![] : Fin 0 → Fin S3.rank))

/-- lo = max(ε − x, 0) · ½. -/
def clipLow (x : FVec Ideal S3 .f32) : FVec Ideal S3 .f32 :=
  mulf (maximumf (subf (broadcastInDim S3 ![] hb3 (constant (F := Ideal) S_ .f32 0x3DCCCCCD#32)) x)
      (broadcastInDim S3 ![] hb3 (constant (F := Ideal) S_ .f32 0x00000000#32)))
    (broadcastInDim S3 ![] hb3 (constant (F := Ideal) S_ .f32 0x3F000000#32))

/-- hi = max(x − (1 − ε), 0) · ½. -/
def clipHigh (x : FVec Ideal S3 .f32) : FVec Ideal S3 .f32 :=
  mulf (maximumf (subf x (broadcastInDim S3 ![] hb3 (constant (F := Ideal) S_ .f32 0x3F666666#32)))
      (broadcastInDim S3 ![] hb3 (constant (F := Ideal) S_ .f32 0x00000000#32)))
    (broadcastInDim S3 ![] hb3 (constant (F := Ideal) S_ .f32 0x3F000000#32))

/-- The centre x + lo − hi. -/
def centre (x : FVec Ideal S3 .f32) : FVec Ideal S3 .f32 := subf (addf x (clipLow hb3 x)) (clipHigh hb3 x)

/-- The error ε − lo − hi. -/
def err (x : FVec Ideal S3 .f32) : FVec Ideal S3 .f32 :=
  subf (subf (broadcastInDim S3 ![] hb3 (constant (F := Ideal) S_ .f32 0x3DCCCCCD#32)) (clipLow hb3 x)) (clipHigh hb3 x)

variable (hsc : S3.ShapeCasts SN) (hb : S_.BroadcastsInDim SN (![] : Fin 0 → Fin SN.rank))

/-- The mask as the kernel's program takes it: of the flattened error. -/
def maskFlatFirst (x : FVec Ideal S3 .f32) : IVec SN 1 :=
  cmpf .oge (shapeCast SN (err hb3 x) hsc) (broadcastInDim SN ![] hb (constant (F := Ideal) S_ .f32 0x00000000#32))

/-- The mask as the reference takes it: of the error, then flattened. -/
def maskFlatLast (x : FVec Ideal S3 .f32) : IVec SN 1 :=
  shapeCast SN (cmpf .oge (err hb3 x) (broadcastInDim S3 ![] hb3 (constant (F := Ideal) S_ .f32 0x00000000#32))) hsc

/-- Comparing with a constant commutes with flattening. -/
theorem mask_agree (x : FVec Ideal S3 .f32) : maskFlatLast hb3 hsc x = maskFlatFirst hb3 hsc hb x := rfl

end

/-- The matrix read off three [1, N] arrays holding the centre, the error and the row numbers is `spec` of the three vectors. -/
theorem spec_of_rows (hc : SN.ShapeCasts S1N) (ce er : FVec Ideal SN .f32) (rw : IVec SN 32) (r : Fin 12289) (k : Fin 12288) :
    (if r.val = 0 then shapeCast S1N ce hc (ix2 (0 : Fin 1) k)
      else if (shapeCast S1N rw hc (ix2 (0 : Fin 1) k)).toNat = r.val then shapeCast S1N er hc (ix2 (0 : Fin 1) k)
      else Ideal.ofBits .f32 0x00000000#32)
      = spec ce er rw (ix2 r k) := by
  rw [shapeCast_a_1a_apply, shapeCast_a_1a_apply, shapeCast_a_1a_apply]
  rfl

end Zono

end
-- ==== Proof.ZonoKRun.lean ====
/-
  The kernel's program, run: its result is the matrix of the image's centre, error and row numbers, regrouped
  as an array of N + 1 images.
-/
import proofs.«127922_j26998164423199_2_alg».proof.Proof.Gen.KernelIdeal.Frame
import proofs.«127922_j26998164423199_2_alg».proof.Proof.ZonoSpec
import Idealize.ShloMosaic.Lib.Pipeline.Value
import Idealize.ShloMosaic.Lib.ValueIdx
import Idealize.ShloMosaic.Lib.ValueLayout
import proofs.«127922_j26998164423199_2_alg».proof.Proof.ZonoKArray
import proofs.«127922_j26998164423199_2_alg».proof.Proof.ZonoHost
import Idealize.ShloMosaic.Lib.StableHlo.Run
set_option maxRecDepth 16384

noncomputable section

namespace Cert.KernelIdeal.ZonoK

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The row numbers the kernel's program computes from the image. -/
def rowsOfImage (x : FVec Ideal S3x64x64 .f32) : IVec S12288 32 :=
  Zono.rowsOf Facts₀.natLt_1_32 Facts₀.bcast_S_S_ Facts₀.reduceWindows_S12288_S12288_w12288s1p12287_0 Facts₀.h_S_ Facts₀.bcast_S_S12288
    (Zono.maskFlatFirst Facts₀.bcast_S_S3x64x64 Facts₀.shapeCasts_S3x64x64_S12288 Facts₀.bcast_S_S12288 x)

/-- The region is handed the flattened centre as a one-row array, -/
theorem entry_centre (c : Dev nD) :
    (V m c main_v22 : S1x12288.Idx → EReal)
      = shapeCast S1x12288 (shapeCast S12288 (Zono.centre Facts₀.bcast_S_S3x64x64 (m ((c : Thread nD τ).loc main_arg0))) Facts₀.shapeCasts_S3x64x64_S12288) Facts₀.shapeCasts_S12288_S1x12288 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results_simp
  rfl

/-- the flattened error likewise, -/
theorem entry_error (c : Dev nD) :
    (V m c main_v23 : S1x12288.Idx → EReal)
      = shapeCast S1x12288 (shapeCast S12288 (Zono.err Facts₀.bcast_S_S3x64x64 (m ((c : Thread nD τ).loc main_arg0))) Facts₀.shapeCasts_S3x64x64_S12288) Facts₀.shapeCasts_S12288_S1x12288 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results_simp
  rfl

/-- and the row numbers. -/
theorem entry_rows (c : Dev nD) :
    (V m c main_v24 : S1x12288.Idx → BitVec 32)
      = shapeCast S1x12288 (rowsOfImage (m ((c : Thread nD τ).loc main_arg0))) Facts₀.shapeCasts_S12288_S1x12288 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results_simp
  simp only [StableHlo.TRef.toBuf, StableHlo.TRef.ofBuf, cast_eq, id_eq]
  unfold rowsOfImage Zono.rowsOf Zono.maskFlatFirst Zono.err Zono.clipLow Zono.clipHigh
  rfl

set_option pp.maxSteps 20000 in
set_option pp.deepTerms false in
/-- The one operation after the region regroups the output array's columns as images. -/
theorem tail_eq (c : Dev nD) :
    Pipeline.afterTail₀ cfgs (dats m) 0 (V0 m) [hostOps1] c main_v26
      = shapeCast S12289x3x64x64 ((dats m 0 c).arrAt 3 cfg0.N) Facts₀.shapeCasts_S12289x12288_S12289x3x64x64 := by
  unfold Pipeline.afterTail₀
  show StableHlo.after hostOps1 _ (Proc.devRef .tc main_v26) = _
  after_results
  have h : Pipeline.withArrays (cfgs 0).spec c (V0 m c) (fun w => (dats m 0 c).arrAt w (cfgs 0).N) (Proc.devRef .tc main_v25)
      = (dats m 0 c).arrAt 3 cfg0.N :=
    Pipeline.withArrays_arr spec0 launch0.win.arr_inj c _ _ 3
  rw [h]
  rfl

/-- The kernel's result as a function of the image: the matrix of the flattened centre, error and row numbers (each
    handed to the region as a one-row array), its columns regrouped as images. -/
def resultOfImage (x : FVec Ideal S3x64x64 .f32) : FVec Ideal S12289x3x64x64 .f32 :=
  shapeCast S12289x3x64x64
    (kernelMatrix
      (shapeCast S1x12288 (shapeCast S12288 (Zono.centre Facts₀.bcast_S_S3x64x64 x) Facts₀.shapeCasts_S3x64x64_S12288) Facts₀.shapeCasts_S12288_S1x12288)
      (shapeCast S1x12288 (shapeCast S12288 (Zono.err Facts₀.bcast_S_S3x64x64 x) Facts₀.shapeCasts_S3x64x64_S12288) Facts₀.shapeCasts_S12288_S1x12288)
      (shapeCast S1x12288 (rowsOfImage x) Facts₀.shapeCasts_S12288_S1x12288))
    Facts₀.shapeCasts_S12289x12288_S12289x3x64x64

/-- What the program's last operation leaves in the result buffer. -/
theorem result_eq (c : Dev nD) :
    Pipeline.afterTail₀ cfgs (dats m) 0 (V0 m) [hostOps1] c main_v26 = resultOfImage (m ((c : Thread nD τ).loc main_arg0)) := by
  rw [tail_eq, array_final, entry_centre, entry_error, entry_rows]
  rfl

/-- Every weakly fair execution of the kernel's program ends with the result buffer at `resultOfImage` of the image
    and the image unchanged. -/
theorem run : θ_run defs (onTc (τ := τ) (main (F := Ideal))) ⟨m, fun _ => 0, ρ⟩ (fun r => ∀ c : Dev nD,
      r.2.mem ((c.tc : Thread nD τ).loc main_v26) = resultOfImage (m ((c.tc : Thread nD τ).loc main_arg0))
      ∧ r.2.mem ((c.tc : Thread nD τ).loc main_arg0) = m ((c.tc : Thread nD τ).loc main_arg0)) :=
  (θ_run defs _ _).mono (fun _ h c =>
    ⟨((h c).2 main_v26 (Pipeline.mem_restRefs_of main_v26 (by decide) (by decide))).trans (result_eq m c),
     ((h c).2 main_arg0 (Pipeline.mem_restRefs_of main_arg0 (by decide) (by decide))).trans (W_main_arg0 m (dats m) c)⟩)
    (run_main m ρ)

end Cert.KernelIdeal.ZonoK
end
-- ==== Proof.LibScatterSet.lean ====
/-
  Two general facts about a scatter whose body returns the update (a "set" scatter), at any shapes, element type and
  index width.

  The scatter is a left fold over the update indices in row-major order; each step replaces the element of the
  running result at the index the update lands on, and leaves the result alone when the update is dropped.  So an
  element no update lands on keeps the operand's value, and an element exactly one update lands on holds that
  update's value.  Both follow from the same two facts about such a fold over an arbitrary list.
-/
import Idealize.ShloMosaic.PureOps

namespace Zono

open Idealize.ShloMosaic

section Fold

variable {ι β α : Type} [DecidableEq ι]

/-- One step of a scatter fold: element `n` of the schedule lands on `g n` (or is dropped) and carries `v n`. -/
def scatStep (f : α → α → α) (g : β → Option ι) (v : β → α) (r : ι → α) (n : β) : ι → α :=
  match g n with
  | some i => fun i' => if i' = i then f (r i) (v n) else r i'
  | none => r

theorem scatStep_of_ne (f : α → α → α) (g : β → Option ι) (v : β → α) (r : ι → α) (n : β) (i : ι)
    (h : g n ≠ some i) : scatStep f g v r n i = r i := by
  unfold scatStep
  cases hg : g n with
  | none => rfl
  | some i0 =>
    have hne : i ≠ i0 := fun e => h (by rw [hg, e])
    simp only [if_neg hne]

theorem scatStep_of_eq (f : α → α → α) (g : β → Option ι) (v : β → α) (r : ι → α) (n : β) (i : ι)
    (h : g n = some i) : scatStep f g v r n i = f (r i) (v n) := by
  unfold scatStep
  rw [h]
  simp only [if_true]

/-- A fold of scatter steps leaves alone an element that no member of the schedule lands on. -/
theorem foldl_scatStep_miss (f : α → α → α) (g : β → Option ι) (v : β → α) (i : ι) :
    ∀ (l : List β) (x : ι → α), (∀ n ∈ l, g n ≠ some i) → l.foldl (scatStep f g v) x i = x i
  | [], _, _ => rfl
  | n :: l, x, h => by
    rw [List.foldl_cons, foldl_scatStep_miss f g v i l _ (fun m hm => h m (List.mem_cons_of_mem _ hm))]
    exact scatStep_of_ne f g v x n i (h n List.mem_cons_self)

/-- With the body that returns the update: where the schedule is `l₁ ++ n₀ :: l₂`, `n₀` lands on `i` and nothing
    after it does, the fold leaves `n₀`'s value at `i`. -/
theorem foldl_scatStep_hit (g : β → Option ι) (v : β → α) (i : ι) (l₁ l₂ : List β) (n₀ : β) (x : ι → α)
    (h0 : g n₀ = some i) (h2 : ∀ n ∈ l₂, g n ≠ some i) :
    (l₁ ++ n₀ :: l₂).foldl (scatStep (fun _ b => b) g v) x i = v n₀ := by
  rw [List.foldl_append, List.foldl_cons, foldl_scatStep_miss _ g v i l₂ _ h2]
  exact scatStep_of_eq _ g v _ n₀ i h0

end Fold

section Scatter

variable {s si u : Shape} {α : Type} {w : Nat}

/-- A scatter is the fold of `scatStep` over the row-major schedule of the update indices. -/
theorem scatter_eq_foldl (d : ScatterDims s si u) (f : α → α → α) (x : s.Idx → α) (idx : IVec si w) (upd : u.Idx → α) :
    Host.scatter d f x idx upd
      = (List.finRange u.numel).foldl
          (scatStep f (fun n => d.resultIdx? (u.rowMajor.symm n) idx) (fun n => upd (u.rowMajor.symm n))) x := by
  unfold Host.scatter
  congr 1
  funext r n
  unfold scatStep
  beta_reduce
  cases d.resultIdx? (u.rowMajor.symm n) idx <;> rfl

/-- A set scatter leaves alone an element no update lands on. -/
theorem scatter_set_miss (d : ScatterDims s si u) (x : s.Idx → α) (idx : IVec si w) (upd : u.Idx → α) (i : s.Idx)
    (h : ∀ j, d.resultIdx? j idx ≠ some i) : Host.scatter d (fun _ b => b) x idx upd i = x i := by
  rw [scatter_eq_foldl]
  exact foldl_scatStep_miss _ _ _ i _ x (fun n _ => h (u.rowMajor.symm n))

/-- A set scatter puts at an element that exactly one update lands on that update's value. -/
theorem scatter_set_hit (d : ScatterDims s si u) (x : s.Idx → α) (idx : IVec si w) (upd : u.Idx → α) (i : s.Idx)
    (j : u.Idx) (hj : d.resultIdx? j idx = some i) (huniq : ∀ j', d.resultIdx? j' idx = some i → j' = j) :
    Host.scatter d (fun _ b => b) x idx upd i = upd j := by
  rw [scatter_eq_foldl]
  have hmem : u.rowMajor j ∈ List.finRange u.numel := List.mem_finRange _
  obtain ⟨l₁, l₂, hl⟩ := List.append_of_mem hmem
  have hnd : (l₁ ++ u.rowMajor j :: l₂).Nodup := hl ▸ List.nodup_finRange _
  have hnot : u.rowMajor j ∉ l₂ := by
    have h := (List.nodup_append.1 hnd).2.1
    exact (List.nodup_cons.1 h).1
  rw [hl, foldl_scatStep_hit _ _ i l₁ l₂ (u.rowMajor j) x]
  · simp only [Equiv.symm_apply_apply]
  · simp only [Equiv.symm_apply_apply]; exact hj
  · intro n hn hland
    have : u.rowMajor.symm n = j := huniq _ hland
    apply hnot
    rw [← this, Equiv.apply_symm_apply]
    exact hn

end Scatter

end Zono
-- ==== Proof.ZonoMath.lean ====
/-
  The mathematics of the zonotope matrix: the two scatters of the reference build the matrix `spec`, and the running
  count of the selection mask gives row numbers in 1 … N or the out-of-range number N + 1.

  First scatter (a whole row at the all-zero start index): update index j' lands at (0, j'), so row 0 receives the
  centre and the rows below keep the zero they had.  Second scatter (single elements): update j' reads its start index
  (row, column) off row j' of the index table; the column component is j' itself, the row component is the row number
  of pixel j'.  A row number N + 1 is outside the matrix and the update is dropped; a row number in 1 … N lands at
  (row number, j').  The landing column is the update's own position, so no two updates land on one element, and
  no update lands in row 0.  Reading a set scatter at an element that exactly one update, or none, lands on
  (LibScatterSet) gives the matrix element by element.
-/
import proofs.«127922_j26998164423199_2_alg».proof.Proof.ZonoSpec
import proofs.«127922_j26998164423199_2_alg».proof.Proof.LibScatterSet
import Idealize.ShloMosaic.Lib.Pipeline.Value

noncomputable section

namespace Zono

open Idealize.ShloMosaic Idealize.ShloMosaic.ValueIdx
/-- The all-zero start-index table of the row scatter. -/
abbrev idxZero (hb1 : S_.BroadcastsInDim SI1 (![] : Fin 0 → Fin SI1.rank)) : IVec SI1 32 :=
  broadcastInDim SI1 ![] hb1 (constantI S_ 32 0#32)

theorem dRow_start (h1 : ScatterDims.WF SZ SI1 SN [0] [0] [0] 0)
    (hb1 : S_.BroadcastsInDim SI1 (![] : Fin 0 → Fin SI1.rank)) (j' : SN.Idx) (a : Fin SZ.rank) :
    (dRow h1).start j' (idxZero hb1) a = 0 := by
  unfold ScatterDims.start
  split
  · rfl
  · rfl

theorem dRow_window0 (h1 : ScatterDims.WF SZ SI1 SN [0] [0] [0] 0) (j' : SN.Idx) :
    (dRow h1).window j' (0 : Fin 2) = 0 := by
  unfold ScatterDims.window
  have hn : (0 : Fin 2) ∉ (dRow h1).sKept := by
    show (0 : Fin 2) ∉ SZ.kept [0]
    decide
  rw [dif_neg hn]

theorem dRow_window1 (h1 : ScatterDims.WF SZ SI1 SN [0] [0] [0] 0) (j' : SN.Idx) :
    (dRow h1).window j' (1 : Fin 2) = (j' 0).val := by
  unfold ScatterDims.window
  have hn : (1 : Fin 2) ∈ (dRow h1).sKept := by
    show (1 : Fin 2) ∈ SZ.kept [0]
    decide
  rw [dif_pos hn]
  generalize hq : ((dRow h1).updateWindowDims[(dRow h1).sKept.idxOf (1 : Fin 2)]'_) = q
  have : q = 0 := Subsingleton.elim _ _
  rw [this]

theorem dRow_resultIdx (h1 : ScatterDims.WF SZ SI1 SN [0] [0] [0] 0)
    (hb1 : S_.BroadcastsInDim SI1 (![] : Fin 0 → Fin SI1.rank)) (j' : SN.Idx) :
    (dRow h1).resultIdx? j' (idxZero hb1) = some (ix2 (n0 := 12289) (n1 := 12288) ⟨0, by omega⟩ (j' 0)) := by
  have hlt : (j' 0).val < 12288 := (j' 0).isLt
  have hall : ∀ a : Fin SZ.rank, 0 ≤ (dRow h1).start j' (idxZero hb1) a + ((dRow h1).window j' a : Int)
      ∧ (dRow h1).start j' (idxZero hb1) a + ((dRow h1).window j' a : Int) < (SZ.size a : Int) := by
    intro a
    rw [dRow_start]
    match a with
    | ⟨0, _⟩ =>
      have := dRow_window0 h1 j'
      show 0 ≤ (0 : Int) + (((dRow h1).window j' (0 : Fin 2) : Nat) : Int) ∧ (0 : Int) + (((dRow h1).window j' (0 : Fin 2) : Nat) : Int) < ((12289 : Nat) : Int)
      omega
    | ⟨1, _⟩ =>
      have := dRow_window1 h1 j'
      show 0 ≤ (0 : Int) + (((dRow h1).window j' (1 : Fin 2) : Nat) : Int) ∧ (0 : Int) + (((dRow h1).window j' (1 : Fin 2) : Nat) : Int) < ((12288 : Nat) : Int)
      omega
  unfold ScatterDims.resultIdx?
  rw [dif_pos hall]
  congr 1
  funext a
  match a with
  | ⟨0, _⟩ =>
    apply Fin.ext
    show ((dRow h1).start j' (idxZero hb1) (0 : Fin 2) + (((dRow h1).window j' (0 : Fin 2) : Nat) : Int)).toNat = 0
    rw [dRow_start, dRow_window0]; rfl
  | ⟨1, _⟩ =>
    apply Fin.ext
    show ((dRow h1).start j' (idxZero hb1) (1 : Fin 2) + (((dRow h1).window j' (1 : Fin 2) : Nat) : Int)).toNat = (j' 0).val
    rw [dRow_start, dRow_window1]; omega

theorem dPt_siIdx (h2 : ScatterDims.WF SZ SNx2 SN [] [0, 1] [0, 1] 1) (j' : SN.Idx)
    (c : Fin (dPt h2).scatterDimsToOperandDims.length) :
    (dPt h2).siIdx j' c = ix2 (n0 := 12288) (n1 := 2) (j' 0) ⟨c.val, c.isLt⟩ := by
  funext b
  match b with
  | ⟨0, _⟩ =>
    unfold ScatterDims.siIdx
    have hne : ¬ ((⟨0, by omega⟩ : Fin SNx2.rank).val = (dPt h2).indexVectorDim) := by
      show ¬ (0 = 1); omega
    rw [dif_neg hne]
    unfold ScatterDims.siCoord
    apply Fin.ext
    show (j' _).val = (j' 0).val
    generalize ((dPt h2).uScatter[(dPt h2).siKept.idxOf (⟨0, by omega⟩ : Fin SNx2.rank)]'_) = q
    have : q = 0 := Subsingleton.elim _ _
    rw [this]
  | ⟨1, _⟩ =>
    unfold ScatterDims.siIdx
    have he : ((⟨1, by omega⟩ : Fin SNx2.rank).val = (dPt h2).indexVectorDim) := rfl
    rw [dif_pos he]
    rfl

theorem dPt_start0 (h2 : ScatterDims.WF SZ SNx2 SN [] [0, 1] [0, 1] 1) (j' : SN.Idx) (idx : IVec SNx2 32) :
    (dPt h2).start j' idx (0 : Fin 2) = (idx (ix2 (n0 := 12288) (n1 := 2) (j' 0) ⟨0, by omega⟩)).toInt := by
  unfold ScatterDims.start
  have hm : (0 : Fin SZ.rank) ∈ (dPt h2).scatterDimsToOperandDims := by
    show (0 : Fin 2) ∈ ([0, 1] : List (Fin 2)); decide
  rw [dif_pos hm, dPt_siIdx]
  rfl

theorem dPt_start1 (h2 : ScatterDims.WF SZ SNx2 SN [] [0, 1] [0, 1] 1) (j' : SN.Idx) (idx : IVec SNx2 32) :
    (dPt h2).start j' idx (1 : Fin 2) = (idx (ix2 (n0 := 12288) (n1 := 2) (j' 0) ⟨1, by omega⟩)).toInt := by
  unfold ScatterDims.start
  have hm : (1 : Fin SZ.rank) ∈ (dPt h2).scatterDimsToOperandDims := by
    show (1 : Fin 2) ∈ ([0, 1] : List (Fin 2)); decide
  rw [dif_pos hm, dPt_siIdx]
  rfl

theorem dPt_window (h2 : ScatterDims.WF SZ SNx2 SN [] [0, 1] [0, 1] 1) (j' : SN.Idx) (a : Fin SZ.rank) :
    (dPt h2).window j' a = 0 := by
  unfold ScatterDims.window
  have hn : a ∉ (dPt h2).sKept := by
    show a ∉ SZ.kept [0, 1]
    revert a; decide
  rw [dif_neg hn]

/-- Where update `j'` of the element scatter lands: at the (row, column) its two start components name, when both are
    inside the matrix. -/
theorem dPt_resultIdx_some (h2 : ScatterDims.WF SZ SNx2 SN [] [0, 1] [0, 1] 1) (j' : SN.Idx) (idx : IVec SNx2 32)
    (r : Fin 12289) (c : Fin 12288)
    (hA : (idx (ix2 (n0 := 12288) (n1 := 2) (j' 0) ⟨0, by omega⟩)).toInt = (r.val : Int))
    (hB : (idx (ix2 (n0 := 12288) (n1 := 2) (j' 0) ⟨1, by omega⟩)).toInt = (c.val : Int)) :
    (dPt h2).resultIdx? j' idx = some (ix2 r c) := by
  have hr := r.isLt
  have hc := c.isLt
  have hall : ∀ a : Fin SZ.rank, 0 ≤ (dPt h2).start j' idx a + ((dPt h2).window j' a : Int)
      ∧ (dPt h2).start j' idx a + ((dPt h2).window j' a : Int) < (SZ.size a : Int) := by
    intro a
    rw [dPt_window]
    match a with
    | ⟨0, _⟩ =>
      show 0 ≤ (dPt h2).start j' idx (0 : Fin 2) + ((0 : Nat) : Int) ∧ (dPt h2).start j' idx (0 : Fin 2) + ((0 : Nat) : Int) < ((12289 : Nat) : Int)
      rw [dPt_start0, hA]; omega
    | ⟨1, _⟩ =>
      show 0 ≤ (dPt h2).start j' idx (1 : Fin 2) + ((0 : Nat) : Int) ∧ (dPt h2).start j' idx (1 : Fin 2) + ((0 : Nat) : Int) < ((12288 : Nat) : Int)
      rw [dPt_start1, hB]; omega
  unfold ScatterDims.resultIdx?
  rw [dif_pos hall]
  congr 1
  funext a
  match a with
  | ⟨0, _⟩ =>
    apply Fin.ext
    show ((dPt h2).start j' idx (0 : Fin 2) + (((dPt h2).window j' (0 : Fin 2) : Nat) : Int)).toNat = r.val
    rw [dPt_start0, dPt_window, hA]; omega
  | ⟨1, _⟩ =>
    apply Fin.ext
    show ((dPt h2).start j' idx (1 : Fin 2) + (((dPt h2).window j' (1 : Fin 2) : Nat) : Int)).toNat = c.val
    rw [dPt_start1, dPt_window, hB]; omega

/-- An update of the element scatter whose row component is outside the matrix is dropped. -/
theorem dPt_resultIdx_none (h2 : ScatterDims.WF SZ SNx2 SN [] [0, 1] [0, 1] 1) (j' : SN.Idx) (idx : IVec SNx2 32)
    (hA : ¬ (0 ≤ (idx (ix2 (n0 := 12288) (n1 := 2) (j' 0) ⟨0, by omega⟩)).toInt
      ∧ (idx (ix2 (n0 := 12288) (n1 := 2) (j' 0) ⟨0, by omega⟩)).toInt < 12289)) :
    (dPt h2).resultIdx? j' idx = none := by
  unfold ScatterDims.resultIdx?
  have hnot : ¬ ∀ a : Fin SZ.rank, 0 ≤ (dPt h2).start j' idx a + ((dPt h2).window j' a : Int)
      ∧ (dPt h2).start j' idx a + ((dPt h2).window j' a : Int) < (SZ.size a : Int) := by
    intro hall
    have h0 := hall (0 : Fin 2)
    rw [dPt_start0, dPt_window] at h0
    apply hA
    have : (SZ.size (0 : Fin 2) : Int) = 12289 := rfl
    rw [this] at h0
    omega
  rw [dif_neg hnot]

/-- The wrap of one index word: `v + n` where `v` is negative as a signed word, else `v`. -/
def wrapS (n v : BitVec 32) : BitVec 32 := Scalar.select (IntOp.cmpi .slt v 0#32) (IntOp.addi v n) v

theorem wrapIdx_apply (hb : S_.BroadcastsInDim SN (![] : Fin 0 → Fin SN.rank)) (n : BitVec 32) (v : IVec SN 32) (k : SN.Idx) :
    wrapIdx hb n v k = wrapS n (v k) := rfl

/-- A word below 2^31 is not negative as a signed word, so the wrap leaves it. -/
theorem wrapS_of_lt (n v : BitVec 32) (h : v.toNat < 2 ^ 31) : wrapS n v = v := by
  unfold wrapS IntOp.cmpi
  have hs : v.slt 0#32 = false := by
    rw [BitVec.slt, BitVec.toInt_eq_toNat_cond]
    simp only [BitVec.toInt_zero]
    rw [if_pos (by omega)]
    simp
  simp only [hs]
  exact select_zero _ _

theorem idxTable_row (hb : S_.BroadcastsInDim SN (![] : Fin 0 → Fin SN.rank))
    (hbc : SN.BroadcastsInDim SNx1 (![0] : Fin 1 → Fin SNx1.rank))
    (hcat : Shape.Concatenates [SNx1, SNx1] SNx2 1) (rw : IVec SN 32) (k : Fin 12288) :
    idxTable hb hbc hcat rw (ix2 (n0 := 12288) (n1 := 2) k ⟨0, by omega⟩) = wrapS 12289#32 (rw (ix1 k)) := by
  unfold idxTable
  rw [concatenate_pair_apply_left (1 : Fin SNx2.rank) _ _ hcat (ix2 (n0 := 12288) (n1 := 2) k ⟨0, by omega⟩) rfl
    (ix2 (n0 := 12288) (n1 := 1) k ⟨0, by omega⟩)
    (fun b => by match b with | ⟨0, _⟩ => rfl | ⟨1, _⟩ => rfl)]
  rw [broadcastInDim_apply (![0] : Fin 1 → Fin SNx1.rank) hbc _ _ (ix1 k)
    (fun a => by
      match a with
      | ⟨0, _⟩ =>
        show k.val = if (12288 : Nat) = 1 then 0 else k.val
        rw [if_neg (by omega)])]
  rfl

theorem idxTable_col (hb : S_.BroadcastsInDim SN (![] : Fin 0 → Fin SN.rank))
    (hbc : SN.BroadcastsInDim SNx1 (![0] : Fin 1 → Fin SNx1.rank))
    (hcat : Shape.Concatenates [SNx1, SNx1] SNx2 1) (rw : IVec SN 32) (k : Fin 12288) :
    idxTable hb hbc hcat rw (ix2 (n0 := 12288) (n1 := 2) k ⟨1, by omega⟩) = wrapS 12288#32 (BitVec.ofNat 32 k.val) := by
  unfold idxTable
  rw [concatenate_pair_apply_right (1 : Fin SNx2.rank) _ _ hcat (ix2 (n0 := 12288) (n1 := 2) k ⟨1, by omega⟩) rfl rfl
    (ix2 (n0 := 12288) (n1 := 1) k ⟨0, by omega⟩)
    (fun b hb => by
      match b with
      | ⟨0, _⟩ => rfl
      | ⟨1, _⟩ => exact absurd rfl hb)
    rfl]
  rw [broadcastInDim_apply (![0] : Fin 1 → Fin SNx1.rank) hbc _ _ (ix1 k)
    (fun a => by
      match a with
      | ⟨0, _⟩ =>
        show k.val = if (12288 : Nat) = 1 then 0 else k.val
        rw [if_neg (by omega)])]
  rfl

theorem toInt_of_lt (v : BitVec 32) (h : v.toNat < 2 ^ 31) : v.toInt = (v.toNat : Int) := by
  rw [BitVec.toInt_eq_toNat_cond, if_pos (by omega)]

section Landing

variable (h2 : ScatterDims.WF SZ SNx2 SN [] [0, 1] [0, 1] 1)
  (hb : S_.BroadcastsInDim SN (![] : Fin 0 → Fin SN.rank))
  (hbc : SN.BroadcastsInDim SNx1 (![0] : Fin 1 → Fin SNx1.rank))
  (hcat : Shape.Concatenates [SNx1, SNx1] SNx2 1) (rw : IVec SN 32)

/-- The column component of update `j'`'s start index is its own position. -/
theorem idxTable_col_toInt (k : Fin 12288) :
    (idxTable hb hbc hcat rw (ix2 (n0 := 12288) (n1 := 2) k ⟨1, by omega⟩)).toInt = (k.val : Int) := by
  have hk := k.isLt
  have hn : (BitVec.ofNat 32 k.val).toNat = k.val := by
    rw [BitVec.toNat_ofNat]; omega
  rw [idxTable_col, wrapS_of_lt _ _ (by omega), toInt_of_lt _ (by omega), hn]

/-- An update whose row number is in 1 … N lands at (its row number, its own column). -/
theorem landing_some (j' : SN.Idx) (h : 1 ≤ (rw (ix1 (j' 0))).toNat ∧ (rw (ix1 (j' 0))).toNat ≤ 12288) :
    (dPt h2).resultIdx? j' (idxTable hb hbc hcat rw)
      = some (ix2 (n0 := 12289) (n1 := 12288) ⟨(rw (ix1 (j' 0))).toNat, by omega⟩ (j' 0)) := by
  apply dPt_resultIdx_some h2 j' _ ⟨(rw (ix1 (j' 0))).toNat, by omega⟩ (j' 0)
  · rw [idxTable_row hb hbc hcat rw (j' 0), wrapS_of_lt _ _ (by omega), toInt_of_lt _ (by omega)]
  · exact idxTable_col_toInt hb hbc hcat rw (j' 0)

/-- An update whose row number is N + 1 is dropped. -/
theorem landing_none (j' : SN.Idx) (h : rw (ix1 (j' 0)) = 12289#32) :
    (dPt h2).resultIdx? j' (idxTable hb hbc hcat rw) = none := by
  apply dPt_resultIdx_none
  rw [idxTable_row hb hbc hcat rw (j' 0), h, wrapS_of_lt _ _ (by decide), toInt_of_lt _ (by decide)]
  decide

end Landing

section Final

variable (h1 : ScatterDims.WF SZ SI1 SN [0] [0] [0] 0) (h2 : ScatterDims.WF SZ SNx2 SN [] [0, 1] [0, 1] 1)
  (hbZ : S_.BroadcastsInDim SZ (![] : Fin 0 → Fin SZ.rank)) (hb1 : S_.BroadcastsInDim SI1 (![] : Fin 0 → Fin SI1.rank))
  (hb : S_.BroadcastsInDim SN (![] : Fin 0 → Fin SN.rank))
  (hbc : SN.BroadcastsInDim SNx1 (![0] : Fin 1 → Fin SNx1.rank))
  (hcat : Shape.Concatenates [SNx1, SNx1] SNx2 1)

/-- The matrix after the first scatter: the centre in row 0, zero below. -/
theorem inner_apply (ce : FVec Ideal SN .f32) (r : Fin 12289) (k : Fin 12288) :
    Host.scatter (dRow h1) (fun _ b => b) (broadcastInDim SZ ![] hbZ (constant (F := Ideal) S_ .f32 0x00000000#32))
        (idxZero hb1) ce (ix2 r k)
      = if r.val = 0 then ce (ix1 k) else Ideal.ofBits .f32 0x00000000#32 := by
  by_cases hr : r.val = 0
  · rw [if_pos hr]
    have hr' : r = ⟨0, by decide⟩ := Fin.ext hr
    subst hr'
    refine scatter_set_hit (dRow h1) _ _ ce _ (ix1 k) ?_ ?_
    · exact dRow_resultIdx h1 hb1 (ix1 k)
    · intro j' hj'
      rw [dRow_resultIdx] at hj'
      have e1 : j' 0 = k := congrFun (Option.some.inj hj') (1 : Fin 2)
      exact (eq_ix1 j').trans (congrArg ix1 e1)
  · rw [if_neg hr]
    refine (scatter_set_miss (dRow h1) _ _ ce _ ?_).trans rfl
    intro j' hj'
    rw [dRow_resultIdx] at hj'
    have e0 : (⟨0, by omega⟩ : Fin 12289) = r := congrFun (Option.some.inj hj') (0 : Fin 2)
    exact hr (congrArg Fin.val e0).symm

/-- An update that lands on (r, k) is update k, and its row number is r. -/
theorem landing_eq (rw : IVec SN 32)
    (hrw : ∀ k, rw k = 12289#32 ∨ (1 ≤ (rw k).toNat ∧ (rw k).toNat ≤ 12288))
    (j' : SN.Idx) (r : Fin 12289) (k : Fin 12288)
    (hj' : (dPt h2).resultIdx? j' (idxTable hb hbc hcat rw) = some (ix2 r k)) :
    j' = ix1 k ∧ (rw (ix1 k)).toNat = r.val := by
  rcases hrw (ix1 (j' 0)) with h | h
  · rw [landing_none h2 hb hbc hcat rw j' h] at hj'
    cases hj'
  · rw [landing_some h2 hb hbc hcat rw j' h] at hj'
    have e := Option.some.inj hj'
    have e0 : (⟨(rw (ix1 (j' 0))).toNat, by omega⟩ : Fin 12289) = r := congrFun e (0 : Fin 2)
    have e1 : j' 0 = k := congrFun e (1 : Fin 2)
    have hj : j' = ix1 k := (eq_ix1 j').trans (congrArg ix1 e1)
    subst hj
    exact ⟨rfl, congrArg Fin.val e0⟩

/-- The two scatters build the matrix Z. -/
theorem scatterForm_eq_spec (ce er : FVec Ideal SN .f32) (rw : IVec SN 32)
    (hrw : ∀ k, rw k = 12289#32 ∨ (1 ≤ (rw k).toNat ∧ (rw k).toNat ≤ 12288)) :
    scatterForm h1 h2 hbZ hb1 hb hbc hcat ce er rw = spec ce er rw := by
  funext j
  obtain ⟨r, k, rfl⟩ : ∃ (r : Fin 12289) (k : Fin 12288), j = ix2 r k := ⟨j 0, j 1, eq_ix2 j⟩
  show Host.scatter (dPt h2) (fun _ b => b)
      (Host.scatter (dRow h1) (fun _ b => b) (broadcastInDim SZ ![] hbZ (constant (F := Ideal) S_ .f32 0x00000000#32))
        (idxZero hb1) ce) (idxTable hb hbc hcat rw) er (ix2 r k)
    = if r.val = 0 then ce (ix1 k) else if (rw (ix1 k)).toNat = r.val then er (ix1 k) else Ideal.ofBits .f32 0x00000000#32
  have hk := hrw (ix1 k)
  have hrlt := r.isLt
  by_cases hr : r.val = 0
  · rw [if_pos hr, scatter_set_miss (dPt h2) _ _ er (ix2 r k), inner_apply, if_pos hr]
    intro j' hj'
    have h := (landing_eq h2 hb hbc hcat rw hrw j' r k hj').2
    rcases hk with h' | h'
    · rw [h'] at h
      have : (12289#32 : BitVec 32).toNat = 12289 := by decide
      omega
    · omega
  · rw [if_neg hr]
    by_cases he : (rw (ix1 k)).toNat = r.val
    · rw [if_pos he]
      have hin : 1 ≤ (rw (ix1 k)).toNat ∧ (rw (ix1 k)).toNat ≤ 12288 := by
        rcases hk with h' | h'
        · rw [h'] at he
          have : (12289#32 : BitVec 32).toNat = 12289 := by decide
          omega
        · exact h'
      refine scatter_set_hit (dPt h2) _ _ er _ (ix1 k) ?_ ?_
      · refine (landing_some h2 hb hbc hcat rw (ix1 k) hin).trans ?_
        have : (⟨(rw (ix1 k)).toNat, by omega⟩ : Fin 12289) = r := Fin.ext he
        rw [← this]
      · intro j' hj'
        exact (landing_eq h2 hb hbc hcat rw hrw j' r k hj').1
    · rw [if_neg he, scatter_set_miss (dPt h2) _ _ er (ix2 r k), inner_apply, if_neg hr]
      intro j' hj'
      exact he (landing_eq h2 hb hbc hcat rw hrw j' r k hj').2

end Final

section RowNumbers

/-- A left fold of word additions of words that are each 0 or 1 counts them, as long as the count cannot wrap. -/
theorem foldl_addi_toNat {β : Type} (g : β → BitVec 32) (hg : ∀ n, (g n).toNat ≤ 1) :
    ∀ (l : List β) (r0 : BitVec 32), r0.toNat + l.length < 2 ^ 32 →
      (l.foldl (fun r n => IntOp.addi r (g n)) r0).toNat = r0.toNat + (l.map fun n => (g n).toNat).sum
  | [], r0, _ => by simp
  | n :: l, r0, h => by
    have hn := hg n
    have hlen : (n :: l).length = l.length + 1 := List.length_cons
    rw [hlen] at h
    have hstep : (IntOp.addi r0 (g n)).toNat = r0.toNat + (g n).toNat := by
      unfold IntOp.addi
      rw [BitVec.toNat_add]
      exact Nat.mod_eq_of_lt (by omega)
    rw [List.foldl_cons, foldl_addi_toNat g hg l _ (by rw [hstep]; omega), hstep, List.map_cons, List.sum_cons]
    omega

/-- A sum of naturals that are each at most 1 is at most their number. -/
theorem sum_le_length_of_le_one : ∀ (l : List Nat), (∀ x ∈ l, x ≤ 1) → l.sum ≤ l.length
  | [], _ => by simp
  | x :: l, h => by
    have hx := h x List.mem_cons_self
    have ih := sum_le_length_of_le_one l (fun y hy => h y (List.mem_cons_of_mem _ hy))
    rw [List.sum_cons, List.length_cons]
    omega

/-- A member of a list of naturals is at most the list's sum. -/
theorem le_sum_of_mem : ∀ (l : List Nat) (x : Nat), x ∈ l → x ≤ l.sum
  | [], _, h => absurd h List.not_mem_nil
  | y :: l, x, h => by
    rw [List.sum_cons]
    rcases List.mem_cons.1 h with e | hm
    · omega
    · have := le_sum_of_mem l x hm
      omega

/-- The window of the running count: N positions along the one axis. -/
abbrev WN : Shape := ⟨SN.rank, ![12288]⟩

theorem WN_numel : WN.numel = 12288 := by
  show (∏ a : Fin 1, (![12288] : Fin 1 → Nat) a) = 12288
  simp

/-- A fold of word additions of 0-or-1 words from zero: at most the number of words, and at least 1 when one of them is 1. -/
theorem foldl_addi_bounds {β : Type} (g : β → BitVec 32) (hg : ∀ n, (g n).toNat ≤ 1) (l : List β) (hl : l.length < 2 ^ 32) :
    (l.foldl (fun r n => IntOp.addi r (g n)) 0#32).toNat ≤ l.length
      ∧ ∀ n0 ∈ l, g n0 = 1#32 → 1 ≤ (l.foldl (fun r n => IntOp.addi r (g n)) 0#32).toNat := by
  have h0 : (0#32 : BitVec 32).toNat = 0 := rfl
  rw [foldl_addi_toNat g hg l 0#32 (by rw [h0]; omega), h0]
  constructor
  · have := sum_le_length_of_le_one (l.map fun n => (g n).toNat) (by
      intro x hx
      obtain ⟨n, _, rfl⟩ := List.mem_map.1 hx
      exact hg n)
    rw [List.length_map] at this
    omega
  · intro n0 hn0 h1
    have hm : (g n0).toNat ∈ l.map fun n => (g n).toNat := List.mem_map.2 ⟨n0, hn0, rfl⟩
    have := le_sum_of_mem _ _ hm
    rw [h1] at this
    have h1' : (1#32 : BitVec 32).toNat = 1 := rfl
    omega

theorem reduceWindow_le (hbb : S_.BroadcastsInDim S_ (![] : Fin 0 → Fin S_.rank))
    (hrw : SN.ReduceWindows (![12288] : Fin 1 → Nat) ![1] ![12287] ![0] SN) (hS : 0 < S_.numel) (x : IVec SN 32)
    (hx : ∀ i, (x i).toNat ≤ 1) (k : SN.Idx) :
    (Host.reduceWindow IntOp.addi ![12288] ![1] ![12287] ![0] x (broadcastInDim S_ ![] hbb (constantI S_ 32 0#32)) hrw hS k).toNat ≤ 12288 := by
  unfold Host.reduceWindow
  refine le_trans (foldl_addi_bounds _ ?_ _ ?_).1 ?_
  · intro n
    dsimp only
    split
    · exact hx _
    · show (0#32 : BitVec 32).toNat ≤ 1
      decide
  · rw [List.length_finRange, WN_numel]; norm_num
  · rw [List.length_finRange, WN_numel]

theorem reduceWindow_pos (hbb : S_.BroadcastsInDim S_ (![] : Fin 0 → Fin S_.rank))
    (hrw : SN.ReduceWindows (![12288] : Fin 1 → Nat) ![1] ![12287] ![0] SN) (hS : 0 < S_.numel) (x : IVec SN 32)
    (hx : ∀ i, (x i).toNat ≤ 1) (k : SN.Idx) (hk : x k = 1#32) :
    1 ≤ (Host.reduceWindow IntOp.addi ![12288] ![1] ![12287] ![0] x (broadcastInDim S_ ![] hbb (constantI S_ 32 0#32)) hrw hS k).toNat := by
  unfold Host.reduceWindow
  refine (foldl_addi_bounds _ ?_ _ ?_).2 (WN.rowMajor (ix1 (n := 12288) ⟨12287, by omega⟩)) (List.mem_finRange _) ?_
  · intro n
    dsimp only
    split
    · exact hx _
    · show (0#32 : BitVec 32).toNat ≤ 1
      decide
  · rw [List.length_finRange, WN_numel]; norm_num
  · dsimp only
    have hsym : WN.rowMajor.symm (WN.rowMajor (ix1 (n := 12288) ⟨12287, by omega⟩)) = ix1 (n := 12288) ⟨12287, by omega⟩ :=
      Equiv.symm_apply_apply _ _
    have hpos : ((WN.rowMajor.symm (WN.rowMajor (ix1 (n := 12288) ⟨12287, by omega⟩))) (0 : Fin 1)).val = 12287 := by
      rw [hsym]
    have hk0 : (k 0).val < 12288 := (k 0).isLt
    split
    · next hin =>
      rw [← hk]
      congr 1
      funext a
      match a with
      | ⟨0, _⟩ =>
        apply Fin.ext
        show (k 0).val * 1 + ((WN.rowMajor.symm (WN.rowMajor (ix1 (n := 12288) ⟨12287, by omega⟩))) (0 : Fin 1)).val - 12287 = (k 0).val
        rw [hpos]; omega
    · next hin =>
      exfalso
      apply hin
      intro a
      match a with
      | ⟨0, _⟩ =>
        show 12287 ≤ (k 0).val * 1 + ((WN.rowMajor.symm (WN.rowMajor (ix1 (n := 12288) ⟨12287, by omega⟩))) (0 : Fin 1)).val
          ∧ (k 0).val * 1 + ((WN.rowMajor.symm (WN.rowMajor (ix1 (n := 12288) ⟨12287, by omega⟩))) (0 : Fin 1)).val - 12287 < 12288
        rw [hpos]; omega

/-- The mask widened to 32 bits is 0 or 1. -/
theorem extui_le_one (hlt : 1 < 32) (cond : IVec SN 1) (i : SN.Idx) : (extui 32 cond hlt i).toNat ≤ 1 := by
  show ((cond i).setWidth 32).toNat ≤ 1
  rw [BitVec.toNat_setWidth]
  have := (cond i).isLt
  have h2 : (2 : Nat) ^ 1 = 2 := rfl
  rw [h2] at this
  rw [Nat.mod_eq_of_lt (by omega)]
  omega

/-- The row numbers are N + 1, or in 1 … N. -/
theorem rowsOf_range (hlt : 1 < 32) (hbb : S_.BroadcastsInDim S_ (![] : Fin 0 → Fin S_.rank))
    (hrw : SN.ReduceWindows (![12288] : Fin 1 → Nat) ![1] ![12287] ![0] SN) (hS : 0 < S_.numel)
    (hb : S_.BroadcastsInDim SN (![] : Fin 0 → Fin SN.rank)) (cond : IVec SN 1) (k : SN.Idx) :
    rowsOf hlt hbb hrw hS hb cond k = 12289#32
      ∨ (1 ≤ (rowsOf hlt hbb hrw hS hb cond k).toNat ∧ (rowsOf hlt hbb hrw hS hb cond k).toNat ≤ 12288) := by
  by_cases hc : cond k = 1#1
  · right
    have e : rowsOf hlt hbb hrw hS hb cond k
        = Host.reduceWindow IntOp.addi ![12288] ![1] ![12287] ![0] (extui 32 cond hlt)
            (broadcastInDim S_ ![] hbb (constantI S_ 32 0#32)) hrw hS k := by
      show Scalar.select (cond k) _ _ = _
      rw [hc]
      exact select_one _ _
    rw [e]
    refine ⟨reduceWindow_pos hbb hrw hS _ (extui_le_one hlt cond) k ?_, reduceWindow_le hbb hrw hS _ (extui_le_one hlt cond) k⟩
    show (cond k).setWidth 32 = 1#32
    rw [hc]
    rfl
  · left
    show Scalar.select (cond k) _ _ = _
    rw [eq_zero_of_ne_one hc]
    exact select_zero _ _

end RowNumbers

end Zono

end
-- ==== Proof.ZonoAgree.lean ====
/-
  The two constructions of the matrix agree: the reference's two scatters, fed the row numbers of the mask it
  flattens last, build the matrix `spec` of the flattened centre, the flattened error and the row numbers of the mask
  taken of the flattened error — the matrix the kernel's blocks tile.
-/
import proofs.«127922_j26998164423199_2_alg».proof.Proof.ZonoHost
import proofs.«127922_j26998164423199_2_alg».proof.Proof.ZonoMath

noncomputable section

namespace Zono

open Idealize.ShloMosaic Idealize.ShloMosaic.ValueIdx

section
variable (hb3 : S_.BroadcastsInDim S3 (![] : Fin 0 → Fin S3.rank)) (hsc : S3.ShapeCasts SN)
  (hb : S_.BroadcastsInDim SN (![] : Fin 0 → Fin SN.rank))
  (hlt : 1 < 32) (hbb : S_.BroadcastsInDim S_ (![] : Fin 0 → Fin S_.rank))
  (hrw : SN.ReduceWindows (![12288] : Fin 1 → Nat) ![1] ![12287] ![0] SN) (hS : 0 < S_.numel)

/-- The matrix of an image: of its flattened centre, its flattened error, and the row numbers of the selected pixels. -/
def specOfImage (x : FVec Ideal S3 .f32) : FVec Ideal SZ .f32 :=
  spec (shapeCast SN (centre hb3 x) hsc) (shapeCast SN (err hb3 x) hsc) (rowsOf hlt hbb hrw hS hb (maskFlatFirst hb3 hsc hb x))

variable (h1 : ScatterDims.WF SZ SI1 SN [0] [0] [0] 0) (h2 : ScatterDims.WF SZ SNx2 SN [] [0, 1] [0, 1] 1)
  (hbZ : S_.BroadcastsInDim SZ (![] : Fin 0 → Fin SZ.rank)) (hb1 : S_.BroadcastsInDim SI1 (![] : Fin 0 → Fin SI1.rank))
  (hbc : SN.BroadcastsInDim SNx1 (![0] : Fin 1 → Fin SNx1.rank))
  (hcat : Shape.Concatenates [SNx1, SNx1] SNx2 1)

/-- The reference's scatters build the image's matrix: the running count of a 0/1 mask over at most N pixels is a row
    number in 1 … N wherever the mask is set (so the centre's row 0 is never overwritten and no index wraps), and the
    out-of-range number N + 1 elsewhere (dropped); each column receives at most one error. -/
theorem scatterForm_of_image (x : FVec Ideal S3 .f32) :
    scatterForm h1 h2 hbZ hb1 hb hbc hcat (shapeCast SN (centre hb3 x) hsc) (shapeCast SN (err hb3 x) hsc)
        (rowsOf hlt hbb hrw hS hb (maskFlatLast hb3 hsc x))
      = specOfImage hb3 hsc hb hlt hbb hrw hS x := by
  rw [mask_agree hb3 hsc hb x]
  exact scatterForm_eq_spec h1 h2 hbZ hb1 hb hbc hcat _ _ _ (fun k => rowsOf_range hlt hbb hrw hS hb _ k)

end

end Zono

end
-- ==== Proof.ZonoKEq.lean ====
/-
  The kernel's result is the image's matrix, its columns regrouped as images.
-/
import proofs.«127922_j26998164423199_2_alg».proof.Proof.Gen.KernelIdeal.Frame
import proofs.«127922_j26998164423199_2_alg».proof.Proof.ZonoSpec
import Idealize.ShloMosaic.Lib.Pipeline.Value
import Idealize.ShloMosaic.Lib.ValueIdx
import Idealize.ShloMosaic.Lib.ValueLayout
import proofs.«127922_j26998164423199_2_alg».proof.Proof.ZonoKRun
import proofs.«127922_j26998164423199_2_alg».proof.Proof.ZonoAgree
set_option maxRecDepth 16384

noncomputable section

namespace Cert.KernelIdeal.ZonoK

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

/-- The matrix the kernel tiles, over the three one-row arrays it is handed, is the image's matrix. -/
theorem result_is_spec (x : FVec Ideal S3x64x64 .f32) :
    resultOfImage x
      = shapeCast S12289x3x64x64
          (Zono.specOfImage Facts₀.bcast_S_S3x64x64 Facts₀.shapeCasts_S3x64x64_S12288 Facts₀.bcast_S_S12288 Facts₀.natLt_1_32 Facts₀.bcast_S_S_
            Facts₀.reduceWindows_S12288_S12288_w12288s1p12287_0 Facts₀.h_S_ x)
          Facts₀.shapeCasts_S12289x12288_S12289x3x64x64 := by
  unfold resultOfImage rowsOfImage
  refine congrArg (fun z => shapeCast S12289x3x64x64 z Facts₀.shapeCasts_S12289x12288_S12289x3x64x64) ?_
  funext j
  obtain ⟨r, k, rfl⟩ : ∃ (r : Fin 12289) (k : Fin 12288), j = ix2 r k := ⟨j 0, j 1, eq_ix2 j⟩
  exact Zono.spec_of_rows _ _ _ _ r k

end Cert.KernelIdeal.ZonoK
end
-- ==== Proof.RefRun.lean ====
/-
  The reference program's run, read back as a function of its argument.

  @main of the reference is a straight line of 63 host operations once its four calls are replaced by their callees'
  operations (two rectifiers, the running count with its inner function, the selection against a scalar). From any
  memory with zero counters every weakly fair execution terminates, each buffer ending at the fold of the operations'
  results over the launch contents; read at the result buffer that fold is one composed term of the argument array
  (`refTerm`, for any float values), and at extended-real floats it is the matrix of the shared vocabulary — the
  flattened centre scattered into row 0 of the zero matrix, then the flattened error scattered pixel by pixel at the row
  numbers the mask's running count gives — reshaped (`refVal`). The argument's buffer is written by no operation.
-/
import proofs.«127922_j26998164423199_2_alg».proof.ReferenceIdeal
import proofs.«127922_j26998164423199_2_alg».proof.Proof.Gen.ReferenceIdeal
import proofs.«127922_j26998164423199_2_alg».proof.Proof.ZonoHost
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Two index columns side by side: the array of (row, column) pairs. A name of its own, with the columns plain
    arguments: the concatenation takes them inside a list its shape evidence depends on. -/
def pair (a b : IVec S12288x1 32) : IVec S12288x2 32 :=
  concatenate S12288x2 1 [⟨S12288x1, a⟩, ⟨S12288x1, b⟩] concatenates_S12288x1_S12288x1_S12288x2_d1

/-- @main's 63 operations in order, each call replaced by its callee's operations over that call's buffers:
    the two rectifiers are three operations each (the zero, its broadcast, the maximum); the running count is the
    inner function's three (the zero, its rank-zero broadcast, the windowed sum); the selection against a scalar is
    three (the scalar at its own type, its broadcast, the select). -/
abbrev ops : List (HloOp τ sig (Elt F)) :=
  [ nullary main_cst (constant S_ .f32 0x3DCCCCCD#32),
    unary main_cst main_v0 (broadcastInDim S3x64x64 ![] bcast_S_S3x64x64 : (⟨S_, .f32⟩ : BufTy).Contents (Elt F) → (⟨S3x64x64, .f32⟩ : BufTy).Contents (Elt F)),
    binary main_v0 main_arg0 main_v1 (subf : (⟨S3x64x64, .f32⟩ : BufTy).Contents (Elt F) → (⟨S3x64x64, .f32⟩ : BufTy).Contents (Elt F) → (⟨S3x64x64, .f32⟩ : BufTy).Contents (Elt F)),
    TRef.nullary main_call0.cst (constant S_ .f32 0x00000000#32),
    TRef.unary main_call0.cst main_call0.v0 (broadcastInDim S3x64x64 ![] bcast_S_S3x64x64),
    TRef.binary (.of main_v1) main_call0.v0 main_call0.v1 maximumf,
    nullary main_cst_0 (constant S_ .f32 0x3F000000#32),
    unary main_cst_0 main_v3 (broadcastInDim S3x64x64 ![] bcast_S_S3x64x64 : (⟨S_, .f32⟩ : BufTy).Contents (Elt F) → (⟨S3x64x64, .f32⟩ : BufTy).Contents (Elt F)),
    binary main_v2 main_v3 main_v4 (mulf : (⟨S3x64x64, .f32⟩ : BufTy).Contents (Elt F) → (⟨S3x64x64, .f32⟩ : BufTy).Contents (Elt F) → (⟨S3x64x64, .f32⟩ : BufTy).Contents (Elt F)),
    nullary main_cst_1 (constant S_ .f32 0x3F666666#32),
    unary main_cst_1 main_v5 (broadcastInDim S3x64x64 ![] bcast_S_S3x64x64 : (⟨S_, .f32⟩ : BufTy).Contents (Elt F) → (⟨S3x64x64, .f32⟩ : BufTy).Contents (Elt F)),
    binary main_arg0 main_v5 main_v6 (subf : (⟨S3x64x64, .f32⟩ : BufTy).Contents (Elt F) → (⟨S3x64x64, .f32⟩ : BufTy).Contents (Elt F) → (⟨S3x64x64, .f32⟩ : BufTy).Contents (Elt F)),
    TRef.nullary main_call1.cst (constant S_ .f32 0x00000000#32),
    TRef.unary main_call1.cst main_call1.v0 (broadcastInDim S3x64x64 ![] bcast_S_S3x64x64),
    TRef.binary (.of main_v6) main_call1.v0 main_call1.v1 maximumf,
    nullary main_cst_2 (constant S_ .f32 0x3F000000#32),
    unary main_cst_2 main_v8 (broadcastInDim S3x64x64 ![] bcast_S_S3x64x64 : (⟨S_, .f32⟩ : BufTy).Contents (Elt F) → (⟨S3x64x64, .f32⟩ : BufTy).Contents (Elt F)),
    binary main_v7 main_v8 main_v9 (mulf : (⟨S3x64x64, .f32⟩ : BufTy).Contents (Elt F) → (⟨S3x64x64, .f32⟩ : BufTy).Contents (Elt F) → (⟨S3x64x64, .f32⟩ : BufTy).Contents (Elt F)),
    binary main_arg0 main_v4 main_v10 (addf : (⟨S3x64x64, .f32⟩ : BufTy).Contents (Elt F) → (⟨S3x64x64, .f32⟩ : BufTy).Contents (Elt F) → (⟨S3x64x64, .f32⟩ : BufTy).Contents (Elt F)),
    binary main_v10 main_v9 main_v11 (subf : (⟨S3x64x64, .f32⟩ : BufTy).Contents (Elt F) → (⟨S3x64x64, .f32⟩ : BufTy).Contents (Elt F) → (⟨S3x64x64, .f32⟩ : BufTy).Contents (Elt F)),
    nullary main_cst_3 (constant S_ .f32 0x3DCCCCCD#32),
    unary main_cst_3 main_v12 (broadcastInDim S3x64x64 ![] bcast_S_S3x64x64 : (⟨S_, .f32⟩ : BufTy).Contents (Elt F) → (⟨S3x64x64, .f32⟩ : BufTy).Contents (Elt F)),
    binary main_v12 main_v4 main_v13 (subf : (⟨S3x64x64, .f32⟩ : BufTy).Contents (Elt F) → (⟨S3x64x64, .f32⟩ : BufTy).Contents (Elt F) → (⟨S3x64x64, .f32⟩ : BufTy).Contents (Elt F)),
    binary main_v13 main_v9 main_v14 (subf : (⟨S3x64x64, .f32⟩ : BufTy).Contents (Elt F) → (⟨S3x64x64, .f32⟩ : BufTy).Contents (Elt F) → (⟨S3x64x64, .f32⟩ : BufTy).Contents (Elt F)),
    nullary main_cst_4 (constant S_ .f32 0x00000000#32),
    unary main_cst_4 main_v15 (broadcastInDim S3x64x64 ![] bcast_S_S3x64x64 : (⟨S_, .f32⟩ : BufTy).Contents (Elt F) → (⟨S3x64x64, .f32⟩ : BufTy).Contents (Elt F)),
    binary main_v14 main_v15 main_v16 (cmpf .oge : (⟨S3x64x64, .f32⟩ : BufTy).Contents (Elt F) → (⟨S3x64x64, .f32⟩ : BufTy).Contents (Elt F) → (⟨S3x64x64, .i1⟩ : BufTy).Contents (Elt F)),
    reshape main_v16 main_v17 rfl shapeCasts_S3x64x64_S12288,
    unary main_v17 main_v18 ((extui 32 · natLt_1_32) : (⟨S12288, .i1⟩ : BufTy).Contents (Elt F) → (⟨S12288, .i32⟩ : BufTy).Contents (Elt F)),
    TRef.nullary main_call2.call0.c (constantI S_ 32 0#32),
    TRef.unary main_call2.call0.c main_call2.call0.v0 (broadcastInDim S_ ![] bcast_S_S_),
    TRef.binary (.of main_v18) main_call2.call0.v0 main_call2.call0.v1 (fun x v => Host.reduceWindow IntOp.addi ![12288] ![1] ![12287] ![0] x v reduceWindows_S12288_S12288_w12288s1p12287_0 h_S_),
    nullary main_c (constantI S_ 32 12289#32),
    TRef.unary (.of main_c) main_call3.v0 id,
    TRef.unary main_call3.v0 main_call3.v1 (broadcastInDim S12288 ![] bcast_S_S12288),
    TRef.ternary (.of main_v17) (.of main_v19) main_call3.v1 main_call3.v2 select,
    nullary main_cst_5 (constant S_ .f32 0x00000000#32),
    unary main_cst_5 main_v21 (broadcastInDim S12289x12288 ![] bcast_S_S12289x12288 : (⟨S_, .f32⟩ : BufTy).Contents (Elt F) → (⟨S12289x12288, .f32⟩ : BufTy).Contents (Elt F)),
    reshape main_v11 main_v22 rfl shapeCasts_S3x64x64_S12288,
    nullary main_c_6 (constantI S_ 32 0#32),
    unary main_c_6 main_v23 (broadcastInDim S1 ![] bcast_S_S1 : (⟨S_, .i32⟩ : BufTy).Contents (Elt F) → (⟨S1, .i32⟩ : BufTy).Contents (Elt F)),
    ternary main_v21 main_v23 main_v22 main_v24 ((fun x i u => Host.scatter scatter_S12289x12288_S1_S12288_0_0_0_0 (fun _ b => b) x i u) : (⟨S12289x12288, .f32⟩ : BufTy).Contents (Elt F) → (⟨S1, .i32⟩ : BufTy).Contents (Elt F) → (⟨S12288, .f32⟩ : BufTy).Contents (Elt F) → (⟨S12289x12288, .f32⟩ : BufTy).Contents (Elt F)),
    nullary main_v25 (iotaInDim S12288 32 0),
    reshape main_v14 main_v26 rfl shapeCasts_S3x64x64_S12288,
    nullary main_c_7 (constantI S_ 32 0#32),
    unary main_c_7 main_v27 (broadcastInDim S12288 ![] bcast_S_S12288 : (⟨S_, .i32⟩ : BufTy).Contents (Elt F) → (⟨S12288, .i32⟩ : BufTy).Contents (Elt F)),
    binary main_v20 main_v27 main_v28 (cmpi .slt : (⟨S12288, .i32⟩ : BufTy).Contents (Elt F) → (⟨S12288, .i32⟩ : BufTy).Contents (Elt F) → (⟨S12288, .i1⟩ : BufTy).Contents (Elt F)),
    nullary main_c_8 (constantI S_ 32 12289#32),
    unary main_c_8 main_v29 (broadcastInDim S12288 ![] bcast_S_S12288 : (⟨S_, .i32⟩ : BufTy).Contents (Elt F) → (⟨S12288, .i32⟩ : BufTy).Contents (Elt F)),
    binary main_v20 main_v29 main_v30 (addi : (⟨S12288, .i32⟩ : BufTy).Contents (Elt F) → (⟨S12288, .i32⟩ : BufTy).Contents (Elt F) → (⟨S12288, .i32⟩ : BufTy).Contents (Elt F)),
    ternary main_v28 main_v30 main_v20 main_v31 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)),
    nullary main_c_9 (constantI S_ 32 0#32),
    unary main_c_9 main_v32 (broadcastInDim S12288 ![] bcast_S_S12288 : (⟨S_, .i32⟩ : BufTy).Contents (Elt F) → (⟨S12288, .i32⟩ : BufTy).Contents (Elt F)),
    binary main_v25 main_v32 main_v33 (cmpi .slt : (⟨S12288, .i32⟩ : BufTy).Contents (Elt F) → (⟨S12288, .i32⟩ : BufTy).Contents (Elt F) → (⟨S12288, .i1⟩ : BufTy).Contents (Elt F)),
    nullary main_c_10 (constantI S_ 32 12288#32),
    unary main_c_10 main_v34 (broadcastInDim S12288 ![] bcast_S_S12288 : (⟨S_, .i32⟩ : BufTy).Contents (Elt F) → (⟨S12288, .i32⟩ : BufTy).Contents (Elt F)),
    binary main_v25 main_v34 main_v35 (addi : (⟨S12288, .i32⟩ : BufTy).Contents (Elt F) → (⟨S12288, .i32⟩ : BufTy).Contents (Elt F) → (⟨S12288, .i32⟩ : BufTy).Contents (Elt F)),
    ternary main_v33 main_v35 main_v25 main_v36 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)),
    unary main_v31 main_v37 (broadcastInDim S12288x1 ![0] bcast_S12288_S12288x1_0 : (⟨S12288, .i32⟩ : BufTy).Contents (Elt F) → (⟨S12288x1, .i32⟩ : BufTy).Contents (Elt F)),
    unary main_v36 main_v38 (broadcastInDim S12288x1 ![0] bcast_S12288_S12288x1_0 : (⟨S12288, .i32⟩ : BufTy).Contents (Elt F) → (⟨S12288x1, .i32⟩ : BufTy).Contents (Elt F)),
    binary main_v37 main_v38 main_v39 (pair : (⟨S12288x1, .i32⟩ : BufTy).Contents (Elt F) → (⟨S12288x1, .i32⟩ : BufTy).Contents (Elt F) → (⟨S12288x2, .i32⟩ : BufTy).Contents (Elt F)),
    ternary main_v24 main_v39 main_v26 main_v40 ((fun x i u => Host.scatter scatter_S12289x12288_S12288x2_S12288_n_01_01_1 (fun _ b => b) x i u) : (⟨S12289x12288, .f32⟩ : BufTy).Contents (Elt F) → (⟨S12288x2, .i32⟩ : BufTy).Contents (Elt F) → (⟨S12288, .f32⟩ : BufTy).Contents (Elt F) → (⟨S12289x12288, .f32⟩ : BufTy).Contents (Elt F)),
    reshape main_v40 main_v41 rfl shapeCasts_S12289x12288_S12289x3x64x64 ]

set_option maxRecDepth 8192 in
set_option maxHeartbeats 4000000 in
/-- @main is that straight line: the callees' definitions unfolded at their calls, both sides are one chain of
    steps once sequencing is reassociated. -/
theorem main_eq (c : Dev nD) : main (F := F) c = seq ops := by
  simp only [main, fn_relu.body, fn_cumsum.body, fn_cumsum_0.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., nullary_bufs_sub .., unary_bufs_sub .., binary_bufs_sub .., reshape_bufs_sub .., unary_bufs_sub .., nullary_bufs_sub .., unary_bufs_sub .., binary_bufs_sub .., nullary_bufs_sub .., unary_bufs_sub .., unary_bufs_sub .., ternary_bufs_sub .., nullary_bufs_sub .., unary_bufs_sub .., reshape_bufs_sub .., nullary_bufs_sub .., unary_bufs_sub .., ternary_bufs_sub .., nullary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., reshape_bufs_sub ..⟩

/-! ## The reference's result as a function of its argument

@main's operations composed in program order, each call's operations at the call, the values read more than once
named after the @main value they are (`x` is the argument array). -/

/-- `%4`: half the part of `0.1 - x` above zero. -/
def v4 (x : FVec F S3x64x64 .f32) : FVec F S3x64x64 .f32 :=
  mulf (maximumf (subf (broadcastInDim S3x64x64 ![] bcast_S_S3x64x64 (constant S_ .f32 0x3DCCCCCD#32)) x) (broadcastInDim S3x64x64 ![] bcast_S_S3x64x64 (constant S_ .f32 0x00000000#32))) (broadcastInDim S3x64x64 ![] bcast_S_S3x64x64 (constant S_ .f32 0x3F000000#32))

/-- `%9`: half the part of `x - 0.9` above zero. -/
def v9 (x : FVec F S3x64x64 .f32) : FVec F S3x64x64 .f32 :=
  mulf (maximumf (subf x (broadcastInDim S3x64x64 ![] bcast_S_S3x64x64 (constant S_ .f32 0x3F666666#32))) (broadcastInDim S3x64x64 ![] bcast_S_S3x64x64 (constant S_ .f32 0x00000000#32))) (broadcastInDim S3x64x64 ![] bcast_S_S3x64x64 (constant S_ .f32 0x3F000000#32))

/-- `%11 = x + %4 - %9`: the values written to row 0. -/
def v11 (x : FVec F S3x64x64 .f32) : FVec F S3x64x64 .f32 := subf (addf x (v4 x)) (v9 x)

/-- `%14 = 0.1 - %4 - %9`: the values scattered below row 0. -/
def v14 (x : FVec F S3x64x64 .f32) : FVec F S3x64x64 .f32 :=
  subf (subf (broadcastInDim S3x64x64 ![] bcast_S_S3x64x64 (constant S_ .f32 0x3DCCCCCD#32)) (v4 x)) (v9 x)

/-- `%17`: the mask `%14 ≥ 0`, flattened. -/
def v17 (x : FVec F S3x64x64 .f32) : IVec S12288 1 :=
  shapeCast S12288 (cmpf .oge (v14 x) (broadcastInDim S3x64x64 ![] bcast_S_S3x64x64 (constant S_ .f32 0x00000000#32))) shapeCasts_S3x64x64_S12288

/-- `%19`: the running count of the mask (a windowed sum over the 12288 positions up to and including each, padded
    with zeros before the first). -/
def v19 (x : FVec F S3x64x64 .f32) : IVec S12288 32 :=
  Host.reduceWindow IntOp.addi ![12288] ![1] ![12287] ![0] (extui 32 (v17 x) natLt_1_32)
    (broadcastInDim S_ ![] bcast_S_S_ (constantI S_ 32 0#32)) reduceWindows_S12288_S12288_w12288s1p12287_0 h_S_

/-- `%20`: the row each flattened position goes to — the running count where the mask holds, 12289 (past the last
    row) elsewhere. -/
def v20 (x : FVec F S3x64x64 .f32) : IVec S12288 32 := select (v17 x) (v19 x) (broadcastInDim S12288 ![] bcast_S_S12288 (constantI S_ 32 12289#32))

/-- `%24`: the zero array with row 0 set to `%11` flattened. -/
def v24 (x : FVec F S3x64x64 .f32) : FVec F S12289x12288 .f32 :=
  Host.scatter scatter_S12289x12288_S1_S12288_0_0_0_0 (fun _ b => b)
    (broadcastInDim S12289x12288 ![] bcast_S_S12289x12288 (constant S_ .f32 0x00000000#32))
    (broadcastInDim S1 ![] bcast_S_S1 (constantI S_ 32 0#32)) (shapeCast S12288 (v11 x) shapeCasts_S3x64x64_S12288)

/-- `%25`: the positions `0 … 12287`. -/
def v25 : IVec S12288 32 := iotaInDim S12288 32 0

/-- `%31`: the row indices, a negative one moved up by the number of rows. -/
def v31 (x : FVec F S3x64x64 .f32) : IVec S12288 32 :=
  select (cmpi .slt (v20 x) (broadcastInDim S12288 ![] bcast_S_S12288 (constantI S_ 32 0#32))) (addi (v20 x) (broadcastInDim S12288 ![] bcast_S_S12288 (constantI S_ 32 12289#32))) (v20 x)

/-- `%36`: the column indices, a negative one moved up by the number of columns. -/
def v36 : IVec S12288 32 := select (cmpi .slt v25 (broadcastInDim S12288 ![] bcast_S_S12288 (constantI S_ 32 0#32))) (addi v25 (broadcastInDim S12288 ![] bcast_S_S12288 (constantI S_ 32 12288#32))) v25

/-- `%39`: the (row, column) pairs. -/
def v39 (x : FVec F S3x64x64 .f32) : IVec S12288x2 32 :=
  pair (broadcastInDim S12288x1 ![0] bcast_S12288_S12288x1_0 (v31 x))
    (broadcastInDim S12288x1 ![0] bcast_S12288_S12288x1_0 v36)

/-- `%40`: `%24` with `%14` flattened scattered at the pairs. -/
def v40 (x : FVec F S3x64x64 .f32) : FVec F S12289x12288 .f32 :=
  Host.scatter scatter_S12289x12288_S12288x2_S12288_n_01_01_1 (fun _ b => b) (v24 x) (v39 x)
    (shapeCast S12288 (v14 x) shapeCasts_S3x64x64_S12288)

/-- The reference's result for any float values: `%40` reshaped. -/
def refTerm (x : FVec F S3x64x64 .f32) : FVec F S12289x3x64x64 .f32 :=
  shapeCast S12289x3x64x64 (v40 x) shapeCasts_S12289x12288_S12289x3x64x64

/-! ## The run -/

attribute [local irreducible] Host.reduceWindow Host.scatter in
set_option maxRecDepth 8192 in
set_option maxHeartbeats 25200000 in
/-- After the 63 operations from any contents `V`, the result buffer holds `refTerm` of the argument's contents: each
    operation's result read at its own buffer is its function of its operands' contents, at any other buffer what
    was there; what is left is the composed term, which is `refTerm` unfolded. The windowed sum and the scatters stay
    folded meanwhile: the two sides apply them to the same arguments, and nothing here looks inside them. -/
theorem out_eq (V : Valuation τ sig (Elt F)) :
    after ops V (main_v41 : DevRef τ sig) = refTerm (V (main_arg0 : DevRef τ sig)) := by
  after_results_simp
  rfl

set_option maxRecDepth 8192 in
set_option maxHeartbeats 25200000 in
/-- No operation writes the argument's buffer. -/
theorem arg0_eq (V : Valuation τ sig (Elt F)) :
    after ops V (main_arg0 : DevRef τ sig) = V (main_arg0 : DevRef τ sig) := by
  after_results_simp

/-- On every device, for any float values, from any memory with zero counters: every weakly fair execution of
    @main terminates with the result buffer at `refTerm` of the argument's launch contents and the argument unchanged. -/
theorem run_any (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41) = refTerm (m ((c.tc : Thread nD τ).loc main_arg0))
      ∧ r.2.mem ((c.tc : Thread nD τ).loc main_arg0) = m ((c.tc : Thread nD τ).loc main_arg0) :=
  (θ_run defs _ _).mono (fun _ h c => ⟨(h c main_v41).trans (out_eq (launchContents m c)),
      (h c main_arg0).trans (arg0_eq (launchContents m c))⟩)
    (run_seq scopedRefs_eq scopedSems_eq defs main (fun _ => ops) main_eq (fun _ => ops_sub) m ρ)

/-! ## The result at the ideal instance, in the shared vocabulary

The same term at extended-real floats, spelt with the definitions the kernel side uses: the centre and the error of the
pixel arithmetic flattened, the row numbers from the mask, the two scatters into the zero matrix. -/

/-- The reference's result at the ideal instance: the matrix built by the two scatters from the flattened centre, the
    flattened error and the row numbers of the mask, reshaped. -/
def refVal (x : FVec Ideal S3x64x64 .f32) : FVec Ideal S12289x3x64x64 .f32 :=
  shapeCast S12289x3x64x64
    (Zono.scatterForm Facts₀.scatter_S12289x12288_S1_S12288_0_0_0_0_wf Facts₀.scatter_S12289x12288_S12288x2_S12288_n_01_01_1_wf
      Facts₀.bcast_S_S12289x12288 Facts₀.bcast_S_S1 Facts₀.bcast_S_S12288 Facts₀.bcast_S12288_S12288x1_0
      Facts₀.concatenates_S12288x1_S12288x1_S12288x2_d1
      (shapeCast S12288 (Zono.centre Facts₀.bcast_S_S3x64x64 x) Facts₀.shapeCasts_S3x64x64_S12288)
      (shapeCast S12288 (Zono.err Facts₀.bcast_S_S3x64x64 x) Facts₀.shapeCasts_S3x64x64_S12288)
      (Zono.rowsOf Facts₀.natLt_1_32 Facts₀.bcast_S_S_ Facts₀.reduceWindows_S12288_S12288_w12288s1p12287_0 Facts₀.h_S_
        Facts₀.bcast_S_S12288
        (Zono.maskFlatLast Facts₀.bcast_S_S3x64x64 Facts₀.shapeCasts_S3x64x64_S12288 x)))
    Facts₀.shapeCasts_S12289x12288_S12289x3x64x64

attribute [local irreducible] Host.reduceWindow Host.scatter in
set_option maxRecDepth 8192 in
/-- The composed term at the ideal instance is that spelling: both unfold to the same applications of the same
    operations, the windowed sum and the scatters applied to the same arguments and never opened. -/
theorem refTerm_eq_refVal (x : FVec Ideal S3x64x64 .f32) : refTerm (F := Ideal) x = refVal x := by
  unfold refTerm refVal v40 v39 v36 v31 v25 v24 v20 v19 v17 v14 v11 v9 v4 pair
  unfold Zono.scatterForm Zono.idxTable Zono.wrapIdx Zono.rowsOf Zono.maskFlatLast Zono.centre Zono.err Zono.clipLow
    Zono.clipHigh
  rfl

/-- At the compiled mesh, at the ideal instance, from any memory with zero counters: every weakly fair execution of
    @main terminates with the result buffer at `refVal` of the argument's launch contents and the argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v41) = refVal (m ((c.tc : Thread nD τ).loc main_arg0))
      ∧ r.2.mem ((c.tc : Thread nD τ).loc main_arg0) = m ((c.tc : Thread nD τ).loc main_arg0)) :=
  (θ_run defs _ _).mono (fun _ h c => ⟨(h c).1.trans (refTerm_eq_refVal _), (h c).2⟩) (run_any m ρ)

end Cert.ReferenceIdeal.RefRun

end
-- ==== Proof.lean ====
/-
  The zonotope-matrix kernel against its reference, at the ideal instance (floats are extended reals).

  With N = 12288 pixels, both programs compute from the image the centre, the error and the selection mask
  "error ≥ 0" by the same pixel arithmetic, and the row numbers: the running count of the mask at a selected pixel,
  N + 1 at an unselected one.  The result is the (N + 1) × N matrix whose row 0 is the centre and whose column k holds
  the error of pixel k in row `rows k` and zero elsewhere, regrouped as N + 1 images.

  The kernel tiles the matrix in 97 blocks of 128 rows (the last block's one row inside the array): the body writes
  "error where the block's row is `rows k` less the block's first row, else zero", and at the first point the centre
  over the block's row 0.  Element (r, k) of block r / 128 is therefore the matrix's (the words compared are far below
  the word size, so the row test is `rows k = r`), and the blocks cover the array.

  The reference scatters the centre into row 0 of a zero matrix and then the errors, pixel by pixel, at (rows k, k).
  A running count of a 0/1 mask over at most N pixels is a number in 1 … N at a selected pixel, so no index is
  negative or wraps, row 0 is never hit, and the index N + 1 of an unselected pixel is dropped; each column receives at
  most one error, so the order of the updates does not matter.  Both results are the same matrix of the same image.
  No law of the extended reals is used beyond equality of terms; the precondition is not opened.
-/
import proofs.«127922_j26998164423199_2_alg».proof.Defs
import proofs.«127922_j26998164423199_2_alg».proof.Proof.Gen.Kernel
import proofs.«127922_j26998164423199_2_alg».proof.Proof.Gen.Kernel.Frame
import proofs.«127922_j26998164423199_2_alg».proof.Proof.Gen.KernelIdeal
import proofs.«127922_j26998164423199_2_alg».proof.Proof.Gen.KernelIdeal.Frame
import proofs.«127922_j26998164423199_2_alg».proof.Proof.Gen.ReferenceIdeal
import proofs.«127922_j26998164423199_2_alg».proof.Proof.Gen.Pre_finite_inputs
import proofs.«127922_j26998164423199_2_alg».proof.Proof.ZonoKEq
import proofs.«127922_j26998164423199_2_alg».proof.Proof.RefRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.RefRun.run m ρ)

/-- The reference's result is the image's matrix regrouped as images: its scatters build the matrix. -/
theorem reference_is_spec (x : FVec Ideal Cert.ReferenceIdeal.S3x64x64 .f32) :
    Cert.ReferenceIdeal.RefRun.refVal x
      = shapeCast Cert.ReferenceIdeal.S12289x3x64x64
          (Zono.specOfImage Cert.ReferenceIdeal.Facts₀.bcast_S_S3x64x64 Cert.ReferenceIdeal.Facts₀.shapeCasts_S3x64x64_S12288
            Cert.ReferenceIdeal.Facts₀.bcast_S_S12288 Cert.ReferenceIdeal.Facts₀.natLt_1_32 Cert.ReferenceIdeal.Facts₀.bcast_S_S_
            Cert.ReferenceIdeal.Facts₀.reduceWindows_S12288_S12288_w12288s1p12287_0 Cert.ReferenceIdeal.Facts₀.h_S_ x)
          Cert.ReferenceIdeal.Facts₀.shapeCasts_S12289x12288_S12289x3x64x64 := by
  unfold Cert.ReferenceIdeal.RefRun.refVal
  rw [Zono.scatterForm_of_image]

/-- Both programs end with the image's matrix: the kernel by its blocks, the reference by its scatters. -/
theorem algebraic : Cert.algebraic_KernelIdeal_ReferenceIdeal := by
  intro m ρ m' ρ' _ hagree
  refine ⟨fun c => Cert.KernelIdeal.ZonoK.resultOfImage (m ((c.tc : Thread Cert.KernelIdeal.nD Cert.KernelIdeal.τ).loc Cert.KernelIdeal.main_arg0)),
    Cert.KernelIdeal.ZonoK.run m ρ, ?_⟩
  refine (θ_run Cert.ReferenceIdeal.defs _ _).mono (fun _ h c => ⟨(h c).1.trans ?_, (h c).2⟩)
    (Cert.ReferenceIdeal.RefRun.run m' ρ')
  rw [hagree c, reference_is_spec]
  exact (Cert.KernelIdeal.ZonoK.result_is_spec _).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
